-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S768x256 : Shape := ⟨2, ![768, 256]⟩
abbrev S256 : Shape := ⟨1, ![256]⟩
abbrev S256x8 : Shape := ⟨2, ![256, 8]⟩
abbrev S8 : Shape := ⟨1, ![8]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S256x8 1) : IVec S_ 1 :=
  let main_c_5 : IVec S_ 1 := constantI S_ 1 1#1
  let main_v17 : IVec S_ 1 := (fun x v => Host.reduce IntOp.andi x v reducesTo_S256x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S32768x768 .f32) (main_arg1 : FVec F S768x256 .f32) (main_arg2 : FVec F S256 .f32) (main_arg3 : FVec F S256x8 .f32) (main_arg4 : FVec F S8 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x8 .f32 := Host.absf main_arg3
  let main_cst_4 : FVec F S_ .f32 := constant S_ .f32 0x7F800000#32
  let main_v15 : FVec F S256x8 .f32 := broadcastInDim S256x8 ![] bcast_S_S256x8 main_cst_4
  let main_v16 : IVec S256x8 1 := cmpf .olt main_v14 main_v15
  fn_part1 (F := F) main_arg4 main_v13 main_v16
-- ==== Kernel.lean ====
abbrev S32768x768 : Shape := ⟨2, ![32768, 768]⟩
abbrev S768x256 : Shape := ⟨2, ![768, 256]⟩
abbrev S256 : Shape := ⟨1, ![256]⟩
abbrev S256x8 : Shape := ⟨2, ![256, 8]⟩
abbrev S8 : Shape := ⟨1, ![8]⟩
abbrev S1x256 : Shape := ⟨2, ![1, 256]⟩
abbrev S1x8 : Shape := ⟨2, ![1, 8]⟩
abbrev S32768x8 : Shape := ⟨2, ![32768, 8]⟩
abbrev S1024x768 : Shape := ⟨2, ![1024, 768]⟩
abbrev S4096x8 : Shape := ⟨2, ![4096, 8]⟩
abbrev S1024x256 : Shape := ⟨2, ![1024, 256]⟩
abbrev S1024x8 : Shape := ⟨2, ![1024, 8]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S32768x768, .f32⟩
  | .hbm, ⟨1, _⟩ => ⟨S768x256, .f32⟩
  | .hbm, ⟨2, _⟩ => ⟨S256, .f32⟩
  | .hbm, ⟨3, _⟩ => ⟨S256x8, .f32⟩
  | .hbm, ⟨4, _⟩ => ⟨S8, .f32⟩
  | .hbm, ⟨5, _⟩ => ⟨S1x256, .f32⟩
  | .hbm, ⟨6, _⟩ => ⟨S1x8, .f32⟩
  | .hbm, ⟨7, _⟩ => ⟨S32768x8, .f32⟩
  | .hbm, ⟨8, _⟩ => ⟨S32768x8, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S768x256, .f32⟩
  | .local _ .vmem, ⟨9, _⟩ => ⟨S1x256, .f32⟩
  | .local _ .vmem, ⟨10, _⟩ => ⟨S256x8, .f32⟩
  | .local _ .vmem, ⟨11, _⟩ => ⟨S1x8, .f32⟩
  | .local _ .vmem, ⟨12, _⟩ => ⟨S4096x8, .f32⟩
  | .local _ .vmem, ⟨13, _⟩ => ⟨S4096x8, .f32⟩
  | .local _ .vmem, ⟨14, _⟩ => ⟨S4096x8, .f32⟩
  | .local _ .vmem, ⟨15, _⟩ => ⟨S4096x8, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S256_S1x256 : S256.ShapeCasts S1x256
  shapeCasts_S8_S1x8 : S8.ShapeCasts S1x8
  inb_S768x256_S768x256_0_0 : ∀ a, (![0, 0] : Fin 2 → Nat) a + S768x256.size a ≤ S768x256.size a
  h_S768x256 : 0 < S768x256.numel
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  reduces_S1024x8_S1024 : S1024x8.Reduces [1] S1024
  shapeCasts_S1024_S1024x1 : S1024.ShapeCasts S1024x1
  broadcasts_S1024x1_S1024x8 : S1024x1.Broadcasts S1024x8
  inb_S4096x8_S1024x8_0_0 : ∀ a, (![0, 0] : Fin 2 → Nat) a + S1024x8.size a ≤ S4096x8.size a
  h_S1024x8 : 0 < S1024x8.numel
  inb_S4096x8_S1024x8_1024_0 : ∀ a, (![1024, 0] : Fin 2 → Nat) a + S1024x8.size a ≤ S4096x8.size a
  inb_S4096x8_S1024x8_2048_0 : ∀ a, (![2048, 0] : Fin 2 → Nat) a + S1024x8.size a ≤ S4096x8.size a
  inb_S4096x8_S1024x8_3072_0 : ∀ a, (![3072, 0] : Fin 2 → Nat) a + S1024x8.size a ≤ S4096x8.size a
  dot_S1024x768_S768x256_S1024x256_1_0_0_1_n_n_wf : DotDims.WF S1024x768 S768x256 S1024x256 [1] [0] [0] [1] [] []
  dot_S1024x256_S256x8_S1024x8_1_0_0_1_n_n_wf : DotDims.WF S1024x256 S256x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S32768x768.size a
  hwx0_1 : ∀ i : grid0.Coords, EltTy.bits .f32 = 32 ∨ (Rect.block (s := S32768x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S32768x768.size a
  hwx0_2 : ∀ i : grid0.Coords, EltTy.bits .f32 = 32 ∨ (Rect.block (s := S32768x768) S1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S32768x768.size a
  hwx0_3 : ∀ i : grid0.Coords, EltTy.bits .f32 = 32 ∨ (Rect.block (s := S32768x768) S1024x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x256.size a ≤ S768x256.size a
  hwx0_4 : ∀ i : grid0.Coords, EltTy.bits .f32 = 32 ∨ (Rect.block (s := S768x256) S768x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x8.size a ≤ S256x8.size a
  hwx0_6 : ∀ i : grid0.Coords, EltTy.bits .f32 = 32 ∨ (Rect.block (s := S256x8) S256x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x8.size a ≤ S32768x8.size a
  hwx0_8 : ∀ i : grid0.Coords, EltTy.bits .f32 = 32 ∨ (Rect.block (s := S32768x8) S4096x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x8.size a ≤ S32768x8.size a
  hwx0_9 : ∀ i : grid0.Coords, EltTy.bits .f32 = 32 ∨ (Rect.block (s := S32768x8) S4096x8.size (cc0_transform_9 i) (hinb0_9 i)).WholeWords (EltTy.packing .f32)

variable [Facts₀]

def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S1024x256_S256x8_S1024x8_1_0_0_1_n_n : DotDims S1024x256 S256x8 S1024x8 where
  lhsContracting := [1]
  rhsContracting := [0]
  lhsNonContracting := [0]
  rhsNonContracting := [1]
  lhsBatch := []
  rhsBatch := []
  wf := dot_S1024x256_S256x8_S1024x8_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S768x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S4096x8.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S4096x8.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x768 : Shape := ⟨2, ![32768, 768]⟩
abbrev S768x256 : Shape := ⟨2, ![768, 256]⟩
abbrev S256 : Shape := ⟨1, ![256]⟩
abbrev S256x8 : Shape := ⟨2, ![256, 8]⟩
abbrev S8 : Shape := ⟨1, ![8]⟩
abbrev S32768x256 : Shape := ⟨2, ![32768, 256]⟩
abbrev S1x256 : Shape := ⟨2, ![1, 256]⟩
abbrev S_ : Shape := ⟨0, ![]⟩
abbrev S32768x8 : Shape := ⟨2, ![32768, 8]⟩
abbrev S1x8 : Shape := ⟨2, ![1, 8]⟩
abbrev S32768 : Shape := ⟨1, ![32768]⟩
abbrev S32768x1 : Shape := ⟨2, ![32768, 1]⟩

abbrev nBuf : Space → Nat
  | .hbm => 30
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x256, .f32⟩
  | .hbm, ⟨2, _⟩ => ⟨S256, .f32⟩
  | .hbm, ⟨3, _⟩ => ⟨S256x8, .f32⟩
  | .hbm, ⟨4, _⟩ => ⟨S8, .f32⟩
  | .hbm, ⟨5, _⟩ => ⟨S32768x256, .f32⟩
  | .hbm, ⟨6, _⟩ => ⟨S1x256, .f32⟩
  | .hbm, ⟨7, _⟩ => ⟨S32768x256, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S32768x8, .f32⟩
  | .hbm, ⟨13, _⟩ => ⟨S1x8, .f32⟩
  | .hbm, ⟨14, _⟩ => ⟨S32768x8, .f32⟩
  | .hbm, ⟨15, _⟩ => ⟨S32768x8, .f32⟩
  | .hbm, ⟨16, _⟩ => ⟨S_, .f32⟩
  | .hbm, ⟨17, _⟩ => ⟨S32768, .f32⟩
  | .hbm, ⟨18, _⟩ => ⟨S_, .f32⟩
  | .hbm, ⟨19, _⟩ => ⟨S32768, .f32⟩
  | .hbm, ⟨20, _⟩ => ⟨S32768, .f32⟩
  | .hbm, ⟨21, _⟩ => ⟨S32768x1, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S32768x8, .f32⟩
  | .hbm, ⟨29, _⟩ => ⟨S32768x8, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S8_S1x8_1 : S8.BroadcastsInDim S1x8 (![1] : Fin 1 → Fin S1x8.rank)
  bcast_S1x8_S32768x8_0_1 : S1x8.BroadcastsInDim S32768x8 (![0, 1] : Fin 2 → Fin S32768x8.rank)
  reducesTo_S32768x8_S32768_d1 : S32768x8.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x8_0_1 : S32768x1.BroadcastsInDim S32768x8 (![0, 1] : Fin 2 → Fin S32768x8.rank)
  dot_S32768x768_S768x256_S32768x256_1_0_0_1_n_n_wf : DotDims.WF S32768x768 S768x256 S32768x256 [1] [0] [0] [1] [] []
  dot_S32768x256_S256x8_S32768x8_1_0_0_1_n_n_wf : DotDims.WF S32768x256 S256x8 S32768x8 [1] [0] [0] [1] [] []

variable [Facts₀]

def dot_S32768x768_S768x256_S32768x256_1_0_0_1_n_n : DotDims S32768x768 S768x256 S32768x256 where
  lhsContracting := [1]
  rhsContracting := [0]
  lhsNonContracting := [0]
  rhsNonContracting := [1]
  lhsBatch := []
  rhsBatch := []
  wf := dot_S32768x768_S768x256_S32768x256_1_0_0_1_n_n_wf
def dot_S32768x256_S256x8_S32768x8_1_0_0_1_n_n : DotDims S32768x256 S256x8 S32768x8 where
  lhsContracting := [1]
  rhsContracting := [0]
  lhsNonContracting := [0]
  rhsNonContracting := [1]
  lhsBatch := []
  rhsBatch := []
  wf := dot_S32768x256_S256x8_S32768x8_1_0_0_1_n_n_wf

class Facts : Prop extends Facts₀ where

variable [Facts]
-- ==== Proof.RouterBodyBits.lean ====
/-
  One grid point of the router kernel (namespace Cert.Kernel), at any float instance.

  The body holds four 1024-row pieces of x (four windows on the one array x), W1, the bias b1 as a row [1,256], W2,
  the bias b2 as a row [1,8], and two output blocks [4096,8]. Piece j (j = 0..3) gives rows 1024·j .. 1024·j+1023 of
  both output blocks: the logits  relu(x_j · W1 + b1) · W2 + b2  and their row-wise softmax. Nothing else is written,
  and the eight input buffers are only read. So after the body each output block is the overlay of four row bands,
  each a pure function of one piece of x and the four parameter buffers; the bands tile the block.
-/
import proofs.«126716_g61555471286782_cont_sun_m_1258_8_alg».proof.Proof.Gen.Kernel.Launch
import proofs.«126716_g61555471286782_cont_sun_m_1258_8_alg».proof.Proof.Gen.Kernel.Skeleton
import proofs.«126716_g61555471286782_cont_sun_m_1258_8_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole piece of x. -/
abbrev rX : Rect S1024x768 := Rect.unit (s := S1024x768) ![0, 0] S1024x768.size inb_S1024x768_S1024x768_0_0
/-- The whole of W1, of the row b1, of W2, of the row b2. -/
abbrev rW1 : Rect S768x256 := Rect.unit (s := S768x256) ![0, 0] S768x256.size inb_S768x256_S768x256_0_0
abbrev rB1 : Rect S1x256 := Rect.unit (s := S1x256) ![0, 0] S1x256.size inb_S1x256_S1x256_0_0
abbrev rW2 : Rect S256x8 := Rect.unit (s := S256x8) ![0, 0] S256x8.size inb_S256x8_S256x8_0_0
abbrev rB2 : Rect S1x8 := Rect.unit (s := S1x8) ![0, 0] S1x8.size inb_S1x8_S1x8_0_0
/-- Row band j of an output block: rows 1024·j .. 1024·j + 1023. -/
abbrev band0 : Rect S4096x8 := Rect.unit (s := S4096x8) ![0, 0] S1024x8.size inb_S4096x8_S1024x8_0_0
abbrev band1 : Rect S4096x8 := Rect.unit (s := S4096x8) ![1024, 0] S1024x8.size inb_S4096x8_S1024x8_1024_0
abbrev band2 : Rect S4096x8 := Rect.unit (s := S4096x8) ![2048, 0] S1024x8.size inb_S4096x8_S1024x8_2048_0
abbrev band3 : Rect S4096x8 := Rect.unit (s := S4096x8) ![3072, 0] S1024x8.size inb_S4096x8_S1024x8_3072_0

/-! ## What the body leaves in the two output blocks -/

/-- The softmax block: band j is the softmax payload of piece j of x (the four payload chains are the program's own). -/
def weightsBlock (x0 x1 x2 x3 : Vec F S1024x768 .f32) (w1 : Vec F S768x256 .f32) (b1 : Vec F S1x256 .f32)
    (w2 : Vec F S256x8 .f32) (b2 : Vec F S1x8 .f32) : Vec F S4096x8 .f32 :=
  View.canon [⟨band3, k0_pay13 (k0_pay1 (View.ld w1 rW1)) (View.ld x3 rX) (View.ld b1 rB1) (View.ld w2 rW2) (View.ld b2 rB2)⟩,
    ⟨band2, k0_pay11 (k0_pay8 (k0_pay1 (View.ld w1 rW1)) (View.ld x2 rX) (View.ld b1 rB1) (View.ld w2 rW2)) (k0_pay9 (View.ld b2 rB2))⟩,
    ⟨band1, k0_pay7 (k0_pay4 (View.ld w1 rW1) (View.ld x1 rX)) (k0_pay5 (View.ld b1 rB1)) (View.ld w2 rW2) (View.ld b2 rB2)⟩,
    ⟨band0, k0_pay3 (View.ld w1 rW1) (View.ld x0 rX) (View.ld b1 rB1) (View.ld w2 rW2) (View.ld b2 rB2)⟩]

/-- The logits block: band j is the logits payload of piece j of x. -/
def logitsBlock (x0 x1 x2 x3 : Vec F S1024x768 .f32) (w1 : Vec F S768x256 .f32) (b1 : Vec F S1x256 .f32)
    (w2 : Vec F S256x8 .f32) (b2 : Vec F S1x8 .f32) : Vec F S4096x8 .f32 :=
  View.canon [⟨band3, k0_pay12 (k0_pay1 (View.ld w1 rW1)) (View.ld x3 rX) (View.ld b1 rB1) (View.ld w2 rW2) (View.ld b2 rB2)⟩,
    ⟨band2, k0_pay10 (k0_pay8 (k0_pay1 (View.ld w1 rW1)) (View.ld x2 rX) (View.ld b1 rB1) (View.ld w2 rW2)) (k0_pay9 (View.ld b2 rB2))⟩,
    ⟨band1, k0_pay6 (k0_pay4 (View.ld w1 rW1) (View.ld x1 rX)) (k0_pay5 (View.ld b1 rB1)) (View.ld w2 rW2) (View.ld b2 rB2)⟩,
    ⟨band0, k0_pay2 (View.ld w1 rW1) (View.ld x0 rX) (View.ld b1 rB1) (View.ld w2 rW2) (View.ld b2 rB2)⟩]

/-- The four row bands tile an output block, so they cover it. -/
theorem bands_cover (p0 p1 p2 p3 : Vec F S1024x8 .f32) (y : S4096x8.Idx) :
    ∃ pc ∈ ([⟨band3, p0⟩, ⟨band2, p1⟩, ⟨band1, p2⟩, ⟨band0, p3⟩] : List (View.Piece (Elt F) S4096x8 .f32)), y ∈ pc.1.set :=
  View.cover_of_tiled [⟨band3, p0⟩, ⟨band2, p1⟩, ⟨band1, p2⟩, ⟨band0, p3⟩] S1024x8.size (by rfl) y

/-! ## The body's triple -/

set_option maxHeartbeats 4000000 in
/-- The body on whole staging buffers — the eight inputs at read contents, the two outputs at anything — runs to the
    end, gives every input back as it was and leaves the outputs at `weightsBlock` and `logitsBlock` of the inputs. -/
theorem sound_kernel (c : Dev nD) (E : Set ℕ) (i : grid0.Coords)
    (arg1 : Memref sig .tc .vmem S1024x768 .f32) (harg1 : arg1.IsWhole) (arg2 : Memref sig .tc .vmem S1024x768 .f32) (harg2 : arg2.IsWhole)
    (arg3 : Memref sig .tc .vmem S1024x768 .f32) (harg3 : arg3.IsWhole) (arg4 : Memref sig .tc .vmem S1024x768 .f32) (harg4 : arg4.IsWhole)
    (arg5 : Memref sig .tc .vmem S768x256 .f32) (harg5 : arg5.IsWhole) (arg6 : Memref sig .tc .vmem S1x256 .f32) (harg6 : arg6.IsWhole)
    (arg7 : Memref sig .tc .vmem S256x8 .f32) (harg7 : arg7.IsWhole) (arg8 : Memref sig .tc .vmem S1x8 .f32) (harg8 : arg8.IsWhole)
    (arg9 : Memref sig .tc .vmem S4096x8 .f32) (harg9 : arg9.IsWhole) (arg10 : Memref sig .tc .vmem S4096x8 .f32) (harg10 : arg10.IsWhole)
    (x0 x1 x2 x3 : Vec F S1024x768 .f32) (w1 : Vec F S768x256 .f32) (b1 : Vec F S1x256 .f32) (w2 : Vec F S256x8 .f32) (b2 : Vec F S1x8 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w1 ∗ owns (c : Thread nD τ) arg6 fullShare b1
        ∗ owns (c : Thread nD τ) arg7 fullShare w2 ∗ owns (c : Thread nD τ) arg8 fullShare b2
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w1 ∗ owns (c : Thread nD τ) arg6 fullShare b1
            ∗ owns (c : Thread nD τ) arg7 fullShare w2 ∗ owns (c : Thread nD τ) arg8 fullShare b2
            ∗ owns (c : Thread nD τ) arg9 fullShare (weightsBlock x0 x1 x2 x3 w1 b1 w2 b2)
            ∗ owns (c : Thread nD τ) arg10 fullShare (logitsBlock x0 x1 x2 x3 w1 b1 w2 b2)) -∗ K ⟨⟩))
      ⊢ wp frame (wpE (defs₀ (F := F)) Variants.none c none) E
          (cc0__router_block i arg1 harg1 arg2 harg2 arg3 harg3 arg4 harg4 arg5 harg5 arg6 harg6 arg7 harg7 arg8 harg8 arg9 harg9 arg10 harg10) K := by
  simp only [cc0__router_block_eq_skeleton]; unfold cc0__router_block_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (bands_cover _ _ _ _)
  iexists _; isplitr
  swap; · iexact H9
  ipureintro
  try dsimp only
  exact View.read_writes_eq_canon _ _ _ (bands_cover _ _ _ _)

end Cert.Kernel.Router

end
-- ==== Proof.RouterRunBits.lean ====
/-
  The router kernel's region (namespace Cert.Kernel), at any float instance: the proof data of its one pipeline, the
  body obligation at every grid point, and the run of @main.

  @main reshapes b1 and b2 to rows and then launches the region on a grid of 8 points. The array x is handed to the
  region through FOUR input windows (window j reads the 1024-row piece 4·t + j at point t); the region only reads x, so
  the full share of x is split in four quarter shares, one per window. W1, the row b1, W2 and the row b2 are read whole
  at every point; the two results are written back block by block (block t at point t). The arguments b1 and b2 are no
  array of the region: they pass by it untouched.
-/
import proofs.«126716_g61555471286782_cont_sun_m_1258_8_alg».proof.Proof.RouterBodyBits

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes of the biases. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input buffer still at its block, the two
    output buffers at the softmax and the logits blocks of the eight input blocks; the invariant the core's scoped
    buffers that are no staging buffer; x shared in quarters among its four windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => weightsBlock (iblk m c 0 t) (iblk m c 1 t) (iblk m c 2 t) (iblk m c 3 t) (iblk m c 4 t) (iblk m c 5 t) (iblk m c 6 t) (iblk m c 7 t)
    | ⟨9, _⟩ => logitsBlock (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_weights (c : Dev nD) (t : Fin cfg0.N) : (dats m 0 c).after 8 t = weightsBlock (iblk m c 0 t) (iblk m c 1 t) (iblk m c 2 t) (iblk m c 3 t) (iblk m c 4 t) (iblk m c 5 t) (iblk m c 6 t) (iblk m c 7 t) := by dsimp only [dats]
theorem after_logits (c : Dev nD) (t : Fin cfg0.N) : (dats m 0 c).after 9 t = logitsBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_weights, after_logits]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry: x in quarters -/

/-- Each window's array is a whole buffer: its points-to over the view's index set is the plain one. -/
theorem array_pointsTo (c : Dev nD) (w : Fin cfg0.W) :
    ((View.loc (c.tc : Thread nD τ) (cfg0.win w).arr.view ↦[(cfg0.win w).arr.view.set]{(dats m 0 c).share w} (dats m 0 c).arrAt w 0 : sProp 𝕄))
      = ((((c.tc : Thread nD τ).loc (Pipeline.arrRef spec0 w)) ↦{(dats m 0 c).share w} V m c (Pipeline.arrRef spec0 w) : sProp 𝕄)) := by
  rw [(arr_whole0 w).set_eq_univ]; rfl

/-- The seven distinct buffers behind the ten windows' arrays, each whole at the full share, are the ten windows' arrays
    at their shares: the full share of x is split in halves and each half in halves again, a quarter per window of x. -/
theorem arrays_at_entry (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  have hlist : ∀ Φ : Ref sig .tc → sProp 𝕄, bigSep (Finset.univ.image (Pipeline.arrRef spec0)) Φ
      = iprop(Φ main_arg0 ∗ Φ main_arg1 ∗ Φ main_call0_v0 ∗ Φ main_arg3 ∗ Φ main_call0_v1 ∗ Φ main_v0_0 ∗ Φ main_v0_1) := fun Φ =>
    bigSep_eq_bigSepL_of_eq [main_arg0, main_arg1, main_call0_v0, main_arg3, main_call0_v1, main_v0_0, main_v0_1] (by decide) (by decide) Φ
  rw [bigSep_W0, hlist]
  beta_reduce
  rw [array_pointsTo m c 0, array_pointsTo m c 1, array_pointsTo m c 2, array_pointsTo m c 3, array_pointsTo m c 4,
    array_pointsTo m c 5, array_pointsTo m c 6, array_pointsTo m c 7, array_pointsTo m c 8, array_pointsTo m c 9]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl, show (dats m 0 c).share 9 = fullShare from rfl]
  iintro ⟨H0, H1, H5, H3, H7, H8, H9⟩
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  isplitl [Hrr]; · iexact Hrr
  isplitl [H1]; · iexact H1
  isplitl [H5]; · iexact H5
  isplitl [H3]; · iexact H3
  isplitl [H7]; · iexact H7
  isplitl [H8]; · iexact H8
  iexact H9

/-! ## The run -/

/-- The region's invariant, at every point: the core's scoped buffers that are no staging buffer. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- What a run of @main ends in: every window's array at what the write-backs made of it, every other unscoped buffer
    (the arguments b1 and b2) as the region found it. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = V m c b

set_option backward.isDefEq.respectTransparency.types false in
/-- From any memory with zero counters every weakly fair execution of @main terminates, faults nowhere, and ends as
    RunPost says. The region's invariant is the scoped rest alone; b1 and b2 bypass the region and are read back. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [inv_eq]
      iintro ⟨-, HR⟩
      iexact HR)
    (hout := fun c => by
      rw [inv_eq]
      iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- info: 'Cert.Kernel.Router.run_main' depends on axioms: [propext, Classical.choice, Quot.sound] -/
#guard_msgs in #print axioms run_main

/-- The frame: after any run the five argument arrays hold what they held at launch — x, W1 and W2 because an input
    window's array is never written back, b1 and b2 because the region never holds them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).1 4).trans (((dats m 0 c).arrAt_in 4 rfl _).trans ((A_eq m c 4).trans (V_main_arg1 m c))),
     ((h c).2 main_arg2 (Pipeline.mem_restRefs_of main_arg2 rfl (by decide))).trans (V_main_arg2 m c),
     ((h c).1 6).trans (((dats m 0 c).arrAt_in 6 rfl _).trans ((A_eq m c 6).trans (V_main_arg3 m c))),
     ((h c).2 main_arg4 (Pipeline.mem_restRefs_of main_arg4 rfl (by decide))).trans (V_main_arg4 m c)⟩) (run_main m ρ)

end Cert.Kernel.Router

end
-- ==== Proof.RouterBodyIdeal.lean ====
/-
  One grid point of the router kernel (namespace Cert.KernelIdeal), at any float instance.

  The body holds four 1024-row pieces of x (four windows on the one array x), W1, the bias b1 as a row [1,256], W2,
  the bias b2 as a row [1,8], and two output blocks [4096,8]. Piece j (j = 0..3) gives rows 1024·j .. 1024·j+1023 of
  both output blocks: the logits  relu(x_j · W1 + b1) · W2 + b2  and their row-wise softmax. Nothing else is written,
  and the eight input buffers are only read. So after the body each output block is the overlay of four row bands,
  each a pure function of one piece of x and the four parameter buffers; the bands tile the block.
-/
import proofs.«126716_g61555471286782_cont_sun_m_1258_8_alg».proof.Proof.Gen.KernelIdeal.Launch
import proofs.«126716_g61555471286782_cont_sun_m_1258_8_alg».proof.Proof.Gen.KernelIdeal.Skeleton
import proofs.«126716_g61555471286782_cont_sun_m_1258_8_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole piece of x. -/
abbrev rX : Rect S1024x768 := Rect.unit (s := S1024x768) ![0, 0] S1024x768.size inb_S1024x768_S1024x768_0_0
/-- The whole of W1, of the row b1, of W2, of the row b2. -/
abbrev rW1 : Rect S768x256 := Rect.unit (s := S768x256) ![0, 0] S768x256.size inb_S768x256_S768x256_0_0
abbrev rB1 : Rect S1x256 := Rect.unit (s := S1x256) ![0, 0] S1x256.size inb_S1x256_S1x256_0_0
abbrev rW2 : Rect S256x8 := Rect.unit (s := S256x8) ![0, 0] S256x8.size inb_S256x8_S256x8_0_0
abbrev rB2 : Rect S1x8 := Rect.unit (s := S1x8) ![0, 0] S1x8.size inb_S1x8_S1x8_0_0
/-- Row band j of an output block: rows 1024·j .. 1024·j + 1023. -/
abbrev band0 : Rect S4096x8 := Rect.unit (s := S4096x8) ![0, 0] S1024x8.size inb_S4096x8_S1024x8_0_0
abbrev band1 : Rect S4096x8 := Rect.unit (s := S4096x8) ![1024, 0] S1024x8.size inb_S4096x8_S1024x8_1024_0
abbrev band2 : Rect S4096x8 := Rect.unit (s := S4096x8) ![2048, 0] S1024x8.size inb_S4096x8_S1024x8_2048_0
abbrev band3 : Rect S4096x8 := Rect.unit (s := S4096x8) ![3072, 0] S1024x8.size inb_S4096x8_S1024x8_3072_0

/-! ## What the body leaves in the two output blocks -/

/-- The softmax block: band j is the softmax payload of piece j of x (the four payload chains are the program's own). -/
def weightsBlock (x0 x1 x2 x3 : Vec F S1024x768 .f32) (w1 : Vec F S768x256 .f32) (b1 : Vec F S1x256 .f32)
    (w2 : Vec F S256x8 .f32) (b2 : Vec F S1x8 .f32) : Vec F S4096x8 .f32 :=
  View.canon [⟨band3, k0_pay13 (k0_pay1 (View.ld w1 rW1)) (View.ld x3 rX) (View.ld b1 rB1) (View.ld w2 rW2) (View.ld b2 rB2)⟩,
    ⟨band2, k0_pay11 (k0_pay8 (k0_pay1 (View.ld w1 rW1)) (View.ld x2 rX) (View.ld b1 rB1) (View.ld w2 rW2)) (k0_pay9 (View.ld b2 rB2))⟩,
    ⟨band1, k0_pay7 (k0_pay4 (View.ld w1 rW1) (View.ld x1 rX)) (k0_pay5 (View.ld b1 rB1)) (View.ld w2 rW2) (View.ld b2 rB2)⟩,
    ⟨band0, k0_pay3 (View.ld w1 rW1) (View.ld x0 rX) (View.ld b1 rB1) (View.ld w2 rW2) (View.ld b2 rB2)⟩]

/-- The logits block: band j is the logits payload of piece j of x. -/
def logitsBlock (x0 x1 x2 x3 : Vec F S1024x768 .f32) (w1 : Vec F S768x256 .f32) (b1 : Vec F S1x256 .f32)
    (w2 : Vec F S256x8 .f32) (b2 : Vec F S1x8 .f32) : Vec F S4096x8 .f32 :=
  View.canon [⟨band3, k0_pay12 (k0_pay1 (View.ld w1 rW1)) (View.ld x3 rX) (View.ld b1 rB1) (View.ld w2 rW2) (View.ld b2 rB2)⟩,
    ⟨band2, k0_pay10 (k0_pay8 (k0_pay1 (View.ld w1 rW1)) (View.ld x2 rX) (View.ld b1 rB1) (View.ld w2 rW2)) (k0_pay9 (View.ld b2 rB2))⟩,
    ⟨band1, k0_pay6 (k0_pay4 (View.ld w1 rW1) (View.ld x1 rX)) (k0_pay5 (View.ld b1 rB1)) (View.ld w2 rW2) (View.ld b2 rB2)⟩,
    ⟨band0, k0_pay2 (View.ld w1 rW1) (View.ld x0 rX) (View.ld b1 rB1) (View.ld w2 rW2) (View.ld b2 rB2)⟩]

/-- The four row bands tile an output block, so they cover it. -/
theorem bands_cover (p0 p1 p2 p3 : Vec F S1024x8 .f32) (y : S4096x8.Idx) :
    ∃ pc ∈ ([⟨band3, p0⟩, ⟨band2, p1⟩, ⟨band1, p2⟩, ⟨band0, p3⟩] : List (View.Piece (Elt F) S4096x8 .f32)), y ∈ pc.1.set :=
  View.cover_of_tiled [⟨band3, p0⟩, ⟨band2, p1⟩, ⟨band1, p2⟩, ⟨band0, p3⟩] S1024x8.size (by rfl) y

/-! ## The body's triple -/

set_option maxHeartbeats 4000000 in
/-- The body on whole staging buffers — the eight inputs at read contents, the two outputs at anything — runs to the
    end, gives every input back as it was and leaves the outputs at `weightsBlock` and `logitsBlock` of the inputs. -/
theorem sound_kernel (c : Dev nD) (E : Set ℕ) (i : grid0.Coords)
    (arg1 : Memref sig .tc .vmem S1024x768 .f32) (harg1 : arg1.IsWhole) (arg2 : Memref sig .tc .vmem S1024x768 .f32) (harg2 : arg2.IsWhole)
    (arg3 : Memref sig .tc .vmem S1024x768 .f32) (harg3 : arg3.IsWhole) (arg4 : Memref sig .tc .vmem S1024x768 .f32) (harg4 : arg4.IsWhole)
    (arg5 : Memref sig .tc .vmem S768x256 .f32) (harg5 : arg5.IsWhole) (arg6 : Memref sig .tc .vmem S1x256 .f32) (harg6 : arg6.IsWhole)
    (arg7 : Memref sig .tc .vmem S256x8 .f32) (harg7 : arg7.IsWhole) (arg8 : Memref sig .tc .vmem S1x8 .f32) (harg8 : arg8.IsWhole)
    (arg9 : Memref sig .tc .vmem S4096x8 .f32) (harg9 : arg9.IsWhole) (arg10 : Memref sig .tc .vmem S4096x8 .f32) (harg10 : arg10.IsWhole)
    (x0 x1 x2 x3 : Vec F S1024x768 .f32) (w1 : Vec F S768x256 .f32) (b1 : Vec F S1x256 .f32) (w2 : Vec F S256x8 .f32) (b2 : Vec F S1x8 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w1 ∗ owns (c : Thread nD τ) arg6 fullShare b1
        ∗ owns (c : Thread nD τ) arg7 fullShare w2 ∗ owns (c : Thread nD τ) arg8 fullShare b2
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w1 ∗ owns (c : Thread nD τ) arg6 fullShare b1
            ∗ owns (c : Thread nD τ) arg7 fullShare w2 ∗ owns (c : Thread nD τ) arg8 fullShare b2
            ∗ owns (c : Thread nD τ) arg9 fullShare (weightsBlock x0 x1 x2 x3 w1 b1 w2 b2)
            ∗ owns (c : Thread nD τ) arg10 fullShare (logitsBlock x0 x1 x2 x3 w1 b1 w2 b2)) -∗ K ⟨⟩))
      ⊢ wp frame (wpE (defs₀ (F := F)) Variants.none c none) E
          (cc0__router_block i arg1 harg1 arg2 harg2 arg3 harg3 arg4 harg4 arg5 harg5 arg6 harg6 arg7 harg7 arg8 harg8 arg9 harg9 arg10 harg10) K := by
  simp only [cc0__router_block_eq_skeleton]; unfold cc0__router_block_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (bands_cover _ _ _ _)
  iexists _; isplitr
  swap; · iexact H9
  ipureintro
  try dsimp only
  exact View.read_writes_eq_canon _ _ _ (bands_cover _ _ _ _)

end Cert.KernelIdeal.Router

end
-- ==== Proof.RouterRunIdeal.lean ====
/-
  The router kernel's region (namespace Cert.KernelIdeal), at any float instance: the proof data of its one pipeline, the
  body obligation at every grid point, and the run of @main.

  @main reshapes b1 and b2 to rows and then launches the region on a grid of 8 points. The array x is handed to the
  region through FOUR input windows (window j reads the 1024-row piece 4·t + j at point t); the region only reads x, so
  the full share of x is split in four quarter shares, one per window. W1, the row b1, W2 and the row b2 are read whole
  at every point; the two results are written back block by block (block t at point t). The arguments b1 and b2 are no
  array of the region: they pass by it untouched.
-/
import proofs.«126716_g61555471286782_cont_sun_m_1258_8_alg».proof.Proof.RouterBodyIdeal

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes of the biases. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input buffer still at its block, the two
    output buffers at the softmax and the logits blocks of the eight input blocks; the invariant the core's scoped
    buffers that are no staging buffer; x shared in quarters among its four windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => weightsBlock (iblk m c 0 t) (iblk m c 1 t) (iblk m c 2 t) (iblk m c 3 t) (iblk m c 4 t) (iblk m c 5 t) (iblk m c 6 t) (iblk m c 7 t)
    | ⟨9, _⟩ => logitsBlock (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_weights (c : Dev nD) (t : Fin cfg0.N) : (dats m 0 c).after 8 t = weightsBlock (iblk m c 0 t) (iblk m c 1 t) (iblk m c 2 t) (iblk m c 3 t) (iblk m c 4 t) (iblk m c 5 t) (iblk m c 6 t) (iblk m c 7 t) := by dsimp only [dats]
theorem after_logits (c : Dev nD) (t : Fin cfg0.N) : (dats m 0 c).after 9 t = logitsBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_weights, after_logits]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry: x in quarters -/

/-- Each window's array is a whole buffer: its points-to over the view's index set is the plain one. -/
theorem array_pointsTo (c : Dev nD) (w : Fin cfg0.W) :
    ((View.loc (c.tc : Thread nD τ) (cfg0.win w).arr.view ↦[(cfg0.win w).arr.view.set]{(dats m 0 c).share w} (dats m 0 c).arrAt w 0 : sProp 𝕄))
      = ((((c.tc : Thread nD τ).loc (Pipeline.arrRef spec0 w)) ↦{(dats m 0 c).share w} V m c (Pipeline.arrRef spec0 w) : sProp 𝕄)) := by
  rw [(arr_whole0 w).set_eq_univ]; rfl

/-- The seven distinct buffers behind the ten windows' arrays, each whole at the full share, are the ten windows' arrays
    at their shares: the full share of x is split in halves and each half in halves again, a quarter per window of x. -/
theorem arrays_at_entry (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Pipeline.arrBufs Dat.arrays
  have hlist : ∀ Φ : Ref sig .tc → sProp 𝕄, bigSep (Finset.univ.image (Pipeline.arrRef spec0)) Φ
      = iprop(Φ main_arg0 ∗ Φ main_arg1 ∗ Φ main_call0_v0 ∗ Φ main_arg3 ∗ Φ main_call0_v1 ∗ Φ main_v0_0 ∗ Φ main_v0_1) := fun Φ =>
    bigSep_eq_bigSepL_of_eq [main_arg0, main_arg1, main_call0_v0, main_arg3, main_call0_v1, main_v0_0, main_v0_1] (by decide) (by decide) Φ
  rw [bigSep_W0, hlist]
  beta_reduce
  rw [array_pointsTo m c 0, array_pointsTo m c 1, array_pointsTo m c 2, array_pointsTo m c 3, array_pointsTo m c 4,
    array_pointsTo m c 5, array_pointsTo m c 6, array_pointsTo m c 7, array_pointsTo m c 8, array_pointsTo m c 9]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl, show (dats m 0 c).share 9 = fullShare from rfl]
  iintro ⟨H0, H1, H5, H3, H7, H8, H9⟩
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  isplitl [Hrr]; · iexact Hrr
  isplitl [H1]; · iexact H1
  isplitl [H5]; · iexact H5
  isplitl [H3]; · iexact H3
  isplitl [H7]; · iexact H7
  isplitl [H8]; · iexact H8
  iexact H9

/-! ## The run -/

/-- The region's invariant, at every point: the core's scoped buffers that are no staging buffer. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- What a run of @main ends in: every window's array at what the write-backs made of it, every other unscoped buffer
    (the arguments b1 and b2) as the region found it. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = V m c b

set_option backward.isDefEq.respectTransparency.types false in
/-- From any memory with zero counters every weakly fair execution of @main terminates, faults nowhere, and ends as
    RunPost says. The region's invariant is the scoped rest alone; b1 and b2 bypass the region and are read back. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [inv_eq]
      iintro ⟨-, HR⟩
      iexact HR)
    (hout := fun c => by
      rw [inv_eq]
      iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- info: 'Cert.KernelIdeal.Router.run_main' depends on axioms: [propext, Classical.choice, Quot.sound] -/
#guard_msgs in #print axioms run_main

/-- The frame: after any run the five argument arrays hold what they held at launch — x, W1 and W2 because an input
    window's array is never written back, b1 and b2 because the region never holds them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).1 4).trans (((dats m 0 c).arrAt_in 4 rfl _).trans ((A_eq m c 4).trans (V_main_arg1 m c))),
     ((h c).2 main_arg2 (Pipeline.mem_restRefs_of main_arg2 rfl (by decide))).trans (V_main_arg2 m c),
     ((h c).1 6).trans (((dats m 0 c).arrAt_in 6 rfl _).trans ((A_eq m c 6).trans (V_main_arg3 m c))),
     ((h c).2 main_arg4 (Pipeline.mem_restRefs_of main_arg4 rfl (by decide))).trans (V_main_arg4 m c)⟩) (run_main m ρ)

end Cert.KernelIdeal.Router

end
-- ==== Proof.RouterSpec.lean ====
/-
  A mixture-of-experts router, row by row, on the extended reals.

  One token is a row `xr` of 768 reals. Its 256 hidden units are `max (xr · W1[:,k] + b1[k]) 0`; its eight expert
  logits are `hidden · W2[:,e] + b2[e]`; its eight routing weights are the softmax of the logits, computed the stable
  way: with `M` the largest logit (the maximum taken from −∞), `exp (l e − M) / ∑ e', exp (l e' − M)`.
  Every output row depends on its own input row only, so the two results of a whole array of tokens and of any block of
  its rows are the same row functions applied to that row: this is what lets a blocked computation be compared with a
  whole-array one without any algebra.

  The operations are the extended reals' own (`Ideal.exp`, `Ideal.div`, `max`, `+`, `*`, `∑`); the two float words
  that occur (the f32 zero and the f32 −∞) are kept as words, so that a program meets these definitions by unfolding.
-/
import Idealize.ShloMosaic.PureOps.Ideal
import Idealize.ShloMosaic.PureOps.Ideal.Laws
import Idealize.ShloMosaic.Lib.ValueIdx

noncomputable section

namespace Cert.RouterSpec

open Idealize.ShloMosaic Idealize.ShloMosaic.ValueIdx

open scoped BigOperators

/-! ## One token -/

/-- Hidden unit `k` of a token: the rectified affine form `max (∑ j, xr j · W1 (j, k) + b1 k) 0`. -/
def hidden (xr : Fin 768 → EReal) (W1 : (⟨2, ![768, 256]⟩ : Shape).Idx → EReal) (b1 : Fin 256 → EReal) (k : Fin 256) : EReal :=
  max ((∑ j : Fin 768, xr j * W1 (ix2 j k)) + b1 k) (Ideal.ofBits .f32 0x00000000#32)

/-- Logit `e` of a token: `∑ k, hidden k · W2 (k, e) + b2 e`. -/
def logitRow (xr : Fin 768 → EReal) (W1 : (⟨2, ![768, 256]⟩ : Shape).Idx → EReal) (b1 : Fin 256 → EReal)
    (W2 : (⟨2, ![256, 8]⟩ : Shape).Idx → EReal) (b2 : Fin 8 → EReal) (e : Fin 8) : EReal :=
  (∑ k : Fin 256, hidden xr W1 b1 k * W2 (ix2 k e)) + b2 e

/-- The largest of eight logits, the maximum taken from −∞. -/
def rowMax (l : Fin 8 → EReal) : EReal :=
  (Finset.univ : Finset (Fin 8)).fold max (Ideal.ofBits .f32 0xFF800000#32) l

/-- The stable softmax of eight logits at `e`: `exp (l e − M) / ∑ e', exp (l e' − M)` with `M = rowMax l`. -/
def softmaxRow (l : Fin 8 → EReal) (e : Fin 8) : EReal :=
  Ideal.div (Ideal.exp (l e - rowMax l)) (∑ e' : Fin 8, Ideal.exp (l e' - rowMax l))

/-- A maximum taken from −∞ is at least −∞: taking the maximum with −∞ once more changes nothing. -/
theorem max_bot_rowMax (l : Fin 8 → EReal) : max (Ideal.ofBits .f32 0xFF800000#32) (rowMax l) = rowMax l :=
  max_eq_right ((Finset.le_fold_max _).mpr (Or.inl le_rfl))

/-! ## `n` tokens: the two results as arrays -/

/-- The logits of `n` tokens, the biases given as functions of the unit. -/
def logitsOf {n : Nat} (x : (⟨2, ![n, 768]⟩ : Shape).Idx → EReal) (W1 : (⟨2, ![768, 256]⟩ : Shape).Idx → EReal)
    (b1 : Fin 256 → EReal) (W2 : (⟨2, ![256, 8]⟩ : Shape).Idx → EReal) (b2 : Fin 8 → EReal) :
    (⟨2, ![n, 8]⟩ : Shape).Idx → EReal :=
  fun i => logitRow (fun j => x (ix2 (i 0) j)) W1 b1 W2 b2 (i 1)

/-- The routing weights of `n` tokens. -/
def weightsOf {n : Nat} (x : (⟨2, ![n, 768]⟩ : Shape).Idx → EReal) (W1 : (⟨2, ![768, 256]⟩ : Shape).Idx → EReal)
    (b1 : Fin 256 → EReal) (W2 : (⟨2, ![256, 8]⟩ : Shape).Idx → EReal) (b2 : Fin 8 → EReal) :
    (⟨2, ![n, 8]⟩ : Shape).Idx → EReal :=
  fun i => softmaxRow (logitRow (fun j => x (ix2 (i 0) j)) W1 b1 W2 b2) (i 1)

theorem logitsOf_apply {n : Nat} (x : (⟨2, ![n, 768]⟩ : Shape).Idx → EReal) (W1 : (⟨2, ![768, 256]⟩ : Shape).Idx → EReal)
    (b1 : Fin 256 → EReal) (W2 : (⟨2, ![256, 8]⟩ : Shape).Idx → EReal) (b2 : Fin 8 → EReal) (r : Fin n) (e : Fin 8) :
    logitsOf x W1 b1 W2 b2 (ix2 r e) = logitRow (fun j => x (ix2 r j)) W1 b1 W2 b2 e := rfl

theorem weightsOf_apply {n : Nat} (x : (⟨2, ![n, 768]⟩ : Shape).Idx → EReal) (W1 : (⟨2, ![768, 256]⟩ : Shape).Idx → EReal)
    (b1 : Fin 256 → EReal) (W2 : (⟨2, ![256, 8]⟩ : Shape).Idx → EReal) (b2 : Fin 8 → EReal) (r : Fin n) (e : Fin 8) :
    weightsOf x W1 b1 W2 b2 (ix2 r e) = softmaxRow (logitRow (fun j => x (ix2 r j)) W1 b1 W2 b2) e := rfl

/-- The weights are the softmax of the logits' row. -/
theorem weightsOf_eq_softmax_logitsOf {n : Nat} (x : (⟨2, ![n, 768]⟩ : Shape).Idx → EReal)
    (W1 : (⟨2, ![768, 256]⟩ : Shape).Idx → EReal) (b1 : Fin 256 → EReal) (W2 : (⟨2, ![256, 8]⟩ : Shape).Idx → EReal)
    (b2 : Fin 8 → EReal) (r : Fin n) (e : Fin 8) :
    weightsOf x W1 b1 W2 b2 (ix2 r e) = softmaxRow (fun e' => logitsOf x W1 b1 W2 b2 (ix2 r e')) e := rfl

/-- Rows that agree give the same logits: row `R` of `x` against row `r` of `y` (a block of `x`'s rows, say). -/
theorem logitsOf_of_row_eq {n m : Nat} (x : (⟨2, ![n, 768]⟩ : Shape).Idx → EReal) (y : (⟨2, ![m, 768]⟩ : Shape).Idx → EReal)
    (W1 : (⟨2, ![768, 256]⟩ : Shape).Idx → EReal) (b1 : Fin 256 → EReal) (W2 : (⟨2, ![256, 8]⟩ : Shape).Idx → EReal)
    (b2 : Fin 8 → EReal) (R : Fin n) (r : Fin m) (h : ∀ j : Fin 768, x (ix2 R j) = y (ix2 r j)) (e : Fin 8) :
    logitsOf x W1 b1 W2 b2 (ix2 R e) = logitsOf y W1 b1 W2 b2 (ix2 r e) := by
  rw [logitsOf_apply, logitsOf_apply, funext h]

/-- … and the same routing weights. -/
theorem weightsOf_of_row_eq {n m : Nat} (x : (⟨2, ![n, 768]⟩ : Shape).Idx → EReal) (y : (⟨2, ![m, 768]⟩ : Shape).Idx → EReal)
    (W1 : (⟨2, ![768, 256]⟩ : Shape).Idx → EReal) (b1 : Fin 256 → EReal) (W2 : (⟨2, ![256, 8]⟩ : Shape).Idx → EReal)
    (b2 : Fin 8 → EReal) (R : Fin n) (r : Fin m) (h : ∀ j : Fin 768, x (ix2 R j) = y (ix2 r j)) (e : Fin 8) :
    weightsOf x W1 b1 W2 b2 (ix2 R e) = weightsOf y W1 b1 W2 b2 (ix2 r e) := by
  rw [weightsOf_apply, weightsOf_apply, funext h]

/-! ## The whole array of 32768 tokens, the biases as vectors -/

/-- The logits `relu (x · W1 + b1) · W2 + b2` of all 32768 tokens. -/
def routerLogits (x : (⟨2, ![32768, 768]⟩ : Shape).Idx → EReal) (W1 : (⟨2, ![768, 256]⟩ : Shape).Idx → EReal)
    (b1 : (⟨1, ![256]⟩ : Shape).Idx → EReal) (W2 : (⟨2, ![256, 8]⟩ : Shape).Idx → EReal) (b2 : (⟨1, ![8]⟩ : Shape).Idx → EReal) :
    (⟨2, ![32768, 8]⟩ : Shape).Idx → EReal :=
  logitsOf x W1 (fun k => b1 (ix1 k)) W2 (fun e => b2 (ix1 e))

/-- The routing weights `softmax (logits, axis 1)` of all 32768 tokens. -/
def routerWeights (x : (⟨2, ![32768, 768]⟩ : Shape).Idx → EReal) (W1 : (⟨2, ![768, 256]⟩ : Shape).Idx → EReal)
    (b1 : (⟨1, ![256]⟩ : Shape).Idx → EReal) (W2 : (⟨2, ![256, 8]⟩ : Shape).Idx → EReal) (b2 : (⟨1, ![8]⟩ : Shape).Idx → EReal) :
    (⟨2, ![32768, 8]⟩ : Shape).Idx → EReal :=
  weightsOf x W1 (fun k => b1 (ix1 k)) W2 (fun e => b2 (ix1 e))

/-! ## A block of 1024 tokens, the biases as one-row matrices -/

/-- The logits of a block of 1024 tokens, each bias held as a matrix of one row. -/
def blockLogits (xb : (⟨2, ![1024, 768]⟩ : Shape).Idx → EReal) (W1 : (⟨2, ![768, 256]⟩ : Shape).Idx → EReal)
    (b1r : (⟨2, ![1, 256]⟩ : Shape).Idx → EReal) (W2 : (⟨2, ![256, 8]⟩ : Shape).Idx → EReal) (b2r : (⟨2, ![1, 8]⟩ : Shape).Idx → EReal) :
    (⟨2, ![1024, 8]⟩ : Shape).Idx → EReal :=
  logitsOf xb W1 (fun k => b1r (ix2 (0 : Fin 1) k)) W2 (fun e => b2r (ix2 (0 : Fin 1) e))

/-- The routing weights of a block of 1024 tokens. -/
def blockWeights (xb : (⟨2, ![1024, 768]⟩ : Shape).Idx → EReal) (W1 : (⟨2, ![768, 256]⟩ : Shape).Idx → EReal)
    (b1r : (⟨2, ![1, 256]⟩ : Shape).Idx → EReal) (W2 : (⟨2, ![256, 8]⟩ : Shape).Idx → EReal) (b2r : (⟨2, ![1, 8]⟩ : Shape).Idx → EReal) :
    (⟨2, ![1024, 8]⟩ : Shape).Idx → EReal :=
  weightsOf xb W1 (fun k => b1r (ix2 (0 : Fin 1) k)) W2 (fun e => b2r (ix2 (0 : Fin 1) e))

/-- A block of the array's rows, with the bias rows holding the bias vectors, computes the array's logits on its rows:
    row `R` of the array against row `r` of the block. -/
theorem routerLogits_eq_blockLogits (x : (⟨2, ![32768, 768]⟩ : Shape).Idx → EReal) (xb : (⟨2, ![1024, 768]⟩ : Shape).Idx → EReal)
    (W1 : (⟨2, ![768, 256]⟩ : Shape).Idx → EReal) (b1 : (⟨1, ![256]⟩ : Shape).Idx → EReal) (b1r : (⟨2, ![1, 256]⟩ : Shape).Idx → EReal)
    (W2 : (⟨2, ![256, 8]⟩ : Shape).Idx → EReal) (b2 : (⟨1, ![8]⟩ : Shape).Idx → EReal) (b2r : (⟨2, ![1, 8]⟩ : Shape).Idx → EReal)
    (R : Fin 32768) (r : Fin 1024) (hx : ∀ j : Fin 768, x (ix2 R j) = xb (ix2 r j))
    (h1 : ∀ k : Fin 256, b1 (ix1 k) = b1r (ix2 (0 : Fin 1) k)) (h2 : ∀ e : Fin 8, b2 (ix1 e) = b2r (ix2 (0 : Fin 1) e)) (e : Fin 8) :
    routerLogits x W1 b1 W2 b2 (ix2 R e) = blockLogits xb W1 b1r W2 b2r (ix2 r e) := by
  unfold routerLogits blockLogits
  rw [funext h1, funext h2]
  exact logitsOf_of_row_eq x xb W1 _ W2 _ R r hx e

/-- … and the array's routing weights. -/
theorem routerWeights_eq_blockWeights (x : (⟨2, ![32768, 768]⟩ : Shape).Idx → EReal) (xb : (⟨2, ![1024, 768]⟩ : Shape).Idx → EReal)
    (W1 : (⟨2, ![768, 256]⟩ : Shape).Idx → EReal) (b1 : (⟨1, ![256]⟩ : Shape).Idx → EReal) (b1r : (⟨2, ![1, 256]⟩ : Shape).Idx → EReal)
    (W2 : (⟨2, ![256, 8]⟩ : Shape).Idx → EReal) (b2 : (⟨1, ![8]⟩ : Shape).Idx → EReal) (b2r : (⟨2, ![1, 8]⟩ : Shape).Idx → EReal)
    (R : Fin 32768) (r : Fin 1024) (hx : ∀ j : Fin 768, x (ix2 R j) = xb (ix2 r j))
    (h1 : ∀ k : Fin 256, b1 (ix1 k) = b1r (ix2 (0 : Fin 1) k)) (h2 : ∀ e : Fin 8, b2 (ix1 e) = b2r (ix2 (0 : Fin 1) e)) (e : Fin 8) :
    routerWeights x W1 b1 W2 b2 (ix2 R e) = blockWeights xb W1 b1r W2 b2r (ix2 r e) := by
  unfold routerWeights blockWeights
  rw [funext h1, funext h2]
  exact weightsOf_of_row_eq x xb W1 _ W2 _ R r hx e

end Cert.RouterSpec

end
-- ==== Proof.RouterBlock.lean ====
/-
  A block of 1024 tokens computes the router's rows.

  The kernel handles the tokens 1024 at a time. For one such block it forms the hidden layer as a tile product of the
  block with the first weight matrix (both rounded to bf16 on the way in, which on the extended reals is the identity),
  adds the first bias laid over every row, rectifies, forms the logits as a second tile product with the second bias laid
  over every row, and then takes the softmax of each row: the row's maximum from −∞ kept as a column and laid over the
  row, a subtraction, an exponential, the row's sum kept as a column and laid over the row, a quotient.
  Read at one element (r, e) of the block, every step reads its operands at that element or along row `r`; so the
  block's two results are the row functions of `RouterSpec` applied to row `r` of the block.
-/
import proofs.«126716_g61555471286782_cont_sun_m_1258_8_alg».proof.Proof.Gen.KernelIdeal.Skeleton
import proofs.«126716_g61555471286782_cont_sun_m_1258_8_alg».proof.Proof.RouterSpec
import Idealize.ShloMosaic.PureOps.Ideal.Laws
import Idealize.ShloMosaic.Lib.ValueIdx
import Idealize.ShloMosaic.Lib.ValueLayout
import Idealize.ShloMosaic.Lib.Pipeline.Value

noncomputable section

namespace Cert.RouterBlock

open Cert.KernelIdeal Cert.KernelIdeal.Gen Cert.RouterSpec
open Idealize.ShloMosaic Idealize.ShloMosaic.ValueIdx

open scoped BigOperators

/-! ## The two tile products -/

theorem hiddenDot_lhs0 (i : S1024x256.Idx) (q : dot_S1024x768_S768x256_S1024x256_1_0_0_1_n_n.contr.Idx) : (dot_S1024x768_S768x256_S1024x256_1_0_0_1_n_n.lhsIdx i q 0).val = (i 0).val := by
  unfold DotDims.lhsIdx
  rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
  rfl
theorem hiddenDot_rhs1 (i : S1024x256.Idx) (q : dot_S1024x768_S768x256_S1024x256_1_0_0_1_n_n.contr.Idx) : (dot_S1024x768_S768x256_S1024x256_1_0_0_1_n_n.rhsIdx i q 1).val = (i 1).val := by
  unfold DotDims.rhsIdx
  rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
  rfl

/-- The tile product into a zero accumulator, at (r, c): the sum over the 768 contracted coordinates of left (r, k) times
    right (k, c). -/
theorem hiddenDot_apply (l : FVec Ideal S1024x768 .bf16) (w : FVec Ideal S768x256 .bf16) (r : Fin 1024) (c : Fin 256) :
    matmul (F := Ideal) dot_S1024x768_S768x256_S1024x256_1_0_0_1_n_n none l w (constant (F := Ideal) S1024x256 .f32 0x00000000#32) (ix2 r c)
      = ∑ k : Fin 768, l (ix2 r k) * w (ix2 k c) := by
  show FloatOps.matmul dot_S1024x768_S768x256_S1024x256_1_0_0_1_n_n none l w (constant (F := Ideal) S1024x256 .f32 0x00000000#32) (ix2 r c) = _
  rw [Ideal.matmul_constant_zero_apply, ← Equiv.sum_comp (contrEquiv1 dot_S1024x768_S768x256_S1024x256_1_0_0_1_n_n 768 rfl rfl).symm]
  refine Finset.sum_congr rfl fun k _ => ?_
  have hk := contrEquiv1_symm_val dot_S1024x768_S768x256_S1024x256_1_0_0_1_n_n 768 rfl rfl k
  have el : dot_S1024x768_S768x256_S1024x256_1_0_0_1_n_n.lhsIdx (ix2 r c) ((contrEquiv1 dot_S1024x768_S768x256_S1024x256_1_0_0_1_n_n 768 rfl rfl).symm k) = ix2 r k := funext fun a => Fin.ext (by
    match a with
    | ⟨0, _⟩ => exact hiddenDot_lhs0 _ _
    | ⟨1, _⟩ => exact (dot_S1024x768_S768x256_S1024x256_1_0_0_1_n_n.lhsIdx_val_of_single rfl _ _).trans hk)
  have er : dot_S1024x768_S768x256_S1024x256_1_0_0_1_n_n.rhsIdx (ix2 r c) ((contrEquiv1 dot_S1024x768_S768x256_S1024x256_1_0_0_1_n_n 768 rfl rfl).symm k) = ix2 k c := funext fun a => Fin.ext (by
    match a with
    | ⟨0, _⟩ => exact (dot_S1024x768_S768x256_S1024x256_1_0_0_1_n_n.rhsIdx_val_of_single rfl _ _).trans hk
    | ⟨1, _⟩ => exact hiddenDot_rhs1 _ _)
  rw [el, er]

theorem logitDot_lhs0 (i : S1024x8.Idx) (q : dot_S1024x256_S256x8_S1024x8_1_0_0_1_n_n.contr.Idx) : (dot_S1024x256_S256x8_S1024x8_1_0_0_1_n_n.lhsIdx i q 0).val = (i 0).val := by
  unfold DotDims.lhsIdx
  rw [dif_neg (show ¬(0 : Fin S1024x256.rank) ∈ dot_S1024x256_S256x8_S1024x8_1_0_0_1_n_n.lhsBatch by decide), dif_pos (show (0 : Fin S1024x256.rank) ∈ dot_S1024x256_S256x8_S1024x8_1_0_0_1_n_n.lhsNonContracting by decide)]
  rfl
theorem logitDot_rhs1 (i : S1024x8.Idx) (q : dot_S1024x256_S256x8_S1024x8_1_0_0_1_n_n.contr.Idx) : (dot_S1024x256_S256x8_S1024x8_1_0_0_1_n_n.rhsIdx i q 1).val = (i 1).val := by
  unfold DotDims.rhsIdx
  rw [dif_neg (show ¬(1 : Fin S256x8.rank) ∈ dot_S1024x256_S256x8_S1024x8_1_0_0_1_n_n.rhsBatch by decide), dif_pos (show (1 : Fin S256x8.rank) ∈ dot_S1024x256_S256x8_S1024x8_1_0_0_1_n_n.rhsNonContracting by decide)]
  rfl

/-- The tile product into a zero accumulator, at (r, c): the sum over the 256 contracted coordinates of left (r, k) times
    right (k, c). -/
theorem logitDot_apply (l : FVec Ideal S1024x256 .f32) (w : FVec Ideal S256x8 .f32) (r : Fin 1024) (c : Fin 8) :
    matmul (F := Ideal) dot_S1024x256_S256x8_S1024x8_1_0_0_1_n_n none l w (constant (F := Ideal) S1024x8 .f32 0x00000000#32) (ix2 r c)
      = ∑ k : Fin 256, l (ix2 r k) * w (ix2 k c) := by
  show FloatOps.matmul dot_S1024x256_S256x8_S1024x8_1_0_0_1_n_n none l w (constant (F := Ideal) S1024x8 .f32 0x00000000#32) (ix2 r c) = _
  rw [Ideal.matmul_constant_zero_apply, ← Equiv.sum_comp (contrEquiv1 dot_S1024x256_S256x8_S1024x8_1_0_0_1_n_n 256 rfl rfl).symm]
  refine Finset.sum_congr rfl fun k _ => ?_
  have hk := contrEquiv1_symm_val dot_S1024x256_S256x8_S1024x8_1_0_0_1_n_n 256 rfl rfl k
  have el : dot_S1024x256_S256x8_S1024x8_1_0_0_1_n_n.lhsIdx (ix2 r c) ((contrEquiv1 dot_S1024x256_S256x8_S1024x8_1_0_0_1_n_n 256 rfl rfl).symm k) = ix2 r k := funext fun a => Fin.ext (by
    match a with
    | ⟨0, _⟩ => exact logitDot_lhs0 _ _
    | ⟨1, _⟩ => exact (dot_S1024x256_S256x8_S1024x8_1_0_0_1_n_n.lhsIdx_val_of_single rfl _ _).trans hk)
  have er : dot_S1024x256_S256x8_S1024x8_1_0_0_1_n_n.rhsIdx (ix2 r c) ((contrEquiv1 dot_S1024x256_S256x8_S1024x8_1_0_0_1_n_n 256 rfl rfl).symm k) = ix2 k c := funext fun a => Fin.ext (by
    match a with
    | ⟨0, _⟩ => exact (dot_S1024x256_S256x8_S1024x8_1_0_0_1_n_n.rhsIdx_val_of_single rfl _ _).trans hk
    | ⟨1, _⟩ => exact logitDot_rhs1 _ _)
  rw [el, er]

/-! ## Rows and columns laid over a tile -/

/-- A bias held as a matrix of one row, laid over every row of a tile: at (r, c) it is the row's entry `c`. -/
theorem biasRow_apply {α : Type} {a b : Nat} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ v h1) h2 (ix2 r c) = v (ix2 (0 : Fin 1) c) := by
  rw [shapeCast_self]
  exact broadcastTo_1b_ab_apply v h2 r c

/-- One value per row, kept as a column and laid over the row's entries: at (r, c) it is row `r`'s value. -/
theorem column_apply {α : Type} {a b : Nat} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (r : Fin a) (c : Fin b) :
    broadcastTo ⟨2, ![a, b]⟩ (shapeCast ⟨2, ![a, 1]⟩ v h1) h2 (ix2 r c) = v (ix1 r) := by
  refine (broadcastTo_apply _ h2 (ix2 r c) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply v h1 _ _ (by
      rw [Shape.rowMajor_val_one, Shape.rowMajor_val_two]
      show r.val = r.val * 1 + 0
      omega)

/-! ## The two reductions along a row -/

/-- A row's index with the coordinate `k` put back on axis 1 is (r, k). -/
theorem lane_lift (h : S1024x8.Reduces [1] S1024) (r : Fin 1024) (k : Fin (S1024x8.size 1)) :
    h.lift (ix1 r) k = ix2 r (⟨k.val, k.isLt⟩ : Fin 8) :=
  funext fun a => Fin.ext (by match a with | ⟨0, _⟩ => rfl | ⟨1, _⟩ => rfl)

/-- The maximum along a row, from −∞. -/
theorem lane_max (src : FVec Ideal S1024x8 .f32) (h : S1024x8.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r) = rowMax (fun e' => src (ix2 r e')) := by
  refine (Ideal.multiReduction_maximumf_single src _ h hφ hacc (ix1 r)).trans ?_
  have hf : (src ∘ h.lift (ix1 r)) = fun k : Fin 8 => src (ix2 r k) :=
    funext fun k => congrArg src (lane_lift h r k)
  show (Finset.univ : Finset (Fin 8)).fold max (Ideal.ofBits .f32 0xFF800000#32) (src ∘ h.lift (ix1 r)) = _
  rw [hf]
  rfl

/-- The sum along a row. -/
theorem lane_sum (src : FVec Ideal S1024x8 .f32) (h : S1024x8.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ e' : Fin 8, src (ix2 r e') := by
  refine (Ideal.multiReduction_add_single src _ h hφ hacc (ix1 r)).trans ?_
  exact Finset.sum_congr rfl fun k _ => congrArg src (lane_lift h r k)

/-- An exponential at an index. -/
theorem exp_apply {s : Shape} {φ : FTy} (a : FVec Ideal s φ) (i : s.Idx) : exp a i = Ideal.exp (a i) := rfl

/-! ## The block's two payloads -/

/-- The block's logits at (r, e): token `r` of the block, logit `e`. The two roundings to bf16 on the way into the first
    product are the identity on the extended reals. -/
theorem payload_logits (w1 : Vec Ideal S768x256 .f32) (xb : Vec Ideal S1024x768 .f32) (b1r : Vec Ideal S1x256 .f32)
    (w2 : Vec Ideal S256x8 .f32) (b2r : Vec Ideal S1x8 .f32) (r : Fin 1024) (e : Fin 8) :
    k0_pay2 (F := Ideal) w1 xb b1r w2 b2r (ix2 r e) = blockLogits xb w1 b1r w2 b2r (ix2 r e) := by
  unfold k0_pay2 k0_pay1
  dsimp only
  rw [addf_apply, logitDot_apply, biasRow_apply]
  simp only [maximumf_apply, addf_apply, hiddenDot_apply, biasRow_apply, broadcast_apply, truncf_apply]
  rfl

theorem payload_logits_eq (w1 : Vec Ideal S768x256 .f32) (xb : Vec Ideal S1024x768 .f32) (b1r : Vec Ideal S1x256 .f32)
    (w2 : Vec Ideal S256x8 .f32) (b2r : Vec Ideal S1x8 .f32) :
    k0_pay2 (F := Ideal) w1 xb b1r w2 b2r = blockLogits xb w1 b1r w2 b2r := by
  funext i
  obtain ⟨r, e, rfl⟩ : ∃ (r : Fin 1024) (e : Fin 8), i = ix2 r e := ⟨i 0, i 1, eq_ix2 i⟩
  exact payload_logits w1 xb b1r w2 b2r r e

/-- The block's routing weights at (r, e): the softmax of token `r`'s logits at `e`. -/
theorem payload_weights (w1 : Vec Ideal S768x256 .f32) (xb : Vec Ideal S1024x768 .f32) (b1r : Vec Ideal S1x256 .f32)
    (w2 : Vec Ideal S256x8 .f32) (b2r : Vec Ideal S1x8 .f32) (r : Fin 1024) (e : Fin 8) :
    k0_pay3 (F := Ideal) w1 xb b1r w2 b2r (ix2 r e) = blockWeights xb w1 b1r w2 b2r (ix2 r e) := by
  show _ = softmaxRow (fun e' => blockLogits xb w1 b1r w2 b2r (ix2 r e')) e
  unfold k0_pay3
  dsimp only
  rw [payload_logits_eq]
  generalize blockLogits xb w1 b1r w2 b2r = y
  rw [divf_apply, column_apply, lane_sum]
  simp only [exp_apply, subf_apply, column_apply]
  rw [lane_max]
  rfl

theorem payload_weights_eq (w1 : Vec Ideal S768x256 .f32) (xb : Vec Ideal S1024x768 .f32) (b1r : Vec Ideal S1x256 .f32)
    (w2 : Vec Ideal S256x8 .f32) (b2r : Vec Ideal S1x8 .f32) :
    k0_pay3 (F := Ideal) w1 xb b1r w2 b2r = blockWeights xb w1 b1r w2 b2r := by
  funext i
  obtain ⟨r, e, rfl⟩ : ∃ (r : Fin 1024) (e : Fin 8), i = ix2 r e := ⟨i 0, i 1, eq_ix2 i⟩
  exact payload_weights w1 xb b1r w2 b2r r e

end Cert.RouterBlock

end
-- ==== Proof.RouterBiasRows.lean ====
/-
  The two bias rows the region reads.

  Before the region is entered the bias vectors b1 (256 entries) and b2 (8 entries) are each recast as a matrix of one
  row. A recast keeps the row-major order of the entries, so entry (0, k) of the row is entry k of the vector.
-/
import proofs.«126716_g61555471286782_cont_sun_m_1258_8_alg».proof.Proof.RouterRunIdeal
import Idealize.ShloMosaic.Lib.StableHlo.Run
import Idealize.ShloMosaic.Lib.ValueIdx
import Idealize.ShloMosaic.Lib.ValueLayout

noncomputable section

namespace Cert.KernelIdeal.RouterBias

open Cert.KernelIdeal Cert.KernelIdeal.Gen Cert.KernelIdeal.Router
open Idealize.ShloMosaic Idealize.ShloMosaic.TcCoe Idealize.SL.Sem Idealize.ShloMosaic.StableHlo
open Idealize.ShloMosaic.ValueIdx

variable {F : FTy → Type} [FloatOps F]

variable (m : (ℓ : Loc nD τ sig) → Buf (Elt F) ℓ)

/-- The first bias row, as the region finds it, is the vector b1 recast to one row. -/
theorem V_bias1_eq (c : Dev nD) :
    (V m c main_call0_v0 : (⟨S1x256, .f32⟩ : BufTy).Contents (Elt F))
      = shapeCast S1x256 (m ((c : Thread nD τ).loc main_arg2) : (⟨S256, .f32⟩ : BufTy).Contents (Elt F)) shapeCasts_S256_S1x256 := by
  dsimp only [Cert.KernelIdeal.Router.V, hostOps0]
  after_results
  rfl

/-- The second bias row, as the region finds it, is the vector b2 recast to one row. -/
theorem V_bias2_eq (c : Dev nD) :
    (V m c main_call0_v1 : (⟨S1x8, .f32⟩ : BufTy).Contents (Elt F))
      = shapeCast S1x8 (m ((c : Thread nD τ).loc main_arg4) : (⟨S8, .f32⟩ : BufTy).Contents (Elt F)) shapeCasts_S8_S1x8 := by
  dsimp only [Cert.KernelIdeal.Router.V, hostOps0]
  after_results
  rfl

/-- Entry (0, k) of the first bias row is entry k of b1. -/
theorem V_bias1_apply (c : Dev nD) (k : Fin 256) :
    (V m c main_call0_v0 : (⟨S1x256, .f32⟩ : BufTy).Contents (Elt F)) (ix2 (0 : Fin 1) k)
      = (m ((c : Thread nD τ).loc main_arg2) : (⟨S256, .f32⟩ : BufTy).Contents (Elt F)) (ix1 k) := by
  rw [V_bias1_eq]
  exact shapeCast_a_1a_apply _ _ 0 k

/-- Entry (0, e) of the second bias row is entry e of b2. -/
theorem V_bias2_apply (c : Dev nD) (e : Fin 8) :
    (V m c main_call0_v1 : (⟨S1x8, .f32⟩ : BufTy).Contents (Elt F)) (ix2 (0 : Fin 1) e)
      = (m ((c : Thread nD τ).loc main_arg4) : (⟨S8, .f32⟩ : BufTy).Contents (Elt F)) (ix1 e) := by
  rw [V_bias2_eq]
  exact shapeCast_a_1a_apply _ _ 0 e

end Cert.KernelIdeal.RouterBias

end
-- ==== Proof.RouterArraysIdeal.lean ====
/-
  The two result arrays of the idealized router kernel after a run, as functions of the five arguments.

  At grid point t the four windows on x hold the pieces of rows 4096·t + 1024·j .. + 1023 (j = 0..3), and the point's
  output blocks are rows 4096·t .. 4096·t + 4095 of the results. Band j of an output block is the block payload of
  piece j, which is the whole-array router function at rows 4096·t + 1024·j + r: so block t of each result is block t
  of the whole-array function, and the eight blocks tile the results.
-/
import proofs.«126716_g61555471286782_cont_sun_m_1258_8_alg».proof.Proof.RouterRunIdeal
import proofs.«126716_g61555471286782_cont_sun_m_1258_8_alg».proof.Proof.RouterSpec
import proofs.«126716_g61555471286782_cont_sun_m_1258_8_alg».proof.Proof.RouterBlock
import proofs.«126716_g61555471286782_cont_sun_m_1258_8_alg».proof.Proof.RouterBiasRows
import Idealize.ShloMosaic.Lib.Pipeline.Value
import Idealize.ShloMosaic.Lib.ValueIdx

set_option maxRecDepth 16384

noncomputable section

namespace Cert.KernelIdeal.Router

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.RouterSpec

/-! ## The four payload chains are one -/

section Regroup
variable {F : FTy → Type} [FloatOps F]

/-- Pieces 1, 2 and 3 compute the logits and the softmax exactly as piece 0 does: the program only cuts the chain at
    other places. -/
theorem piece1_logits (v0 : Vec F S768x256 .f32) (v28 : Vec F S1024x768 .f32) (v31 : Vec F S1x256 .f32) (v37 : Vec F S256x8 .f32) (v39 : Vec F S1x8 .f32) :
    k0_pay6 (k0_pay4 v0 v28) (k0_pay5 v31) v37 v39 = k0_pay2 v0 v28 v31 v37 v39 := rfl
theorem piece1_weights (v0 : Vec F S768x256 .f32) (v28 : Vec F S1024x768 .f32) (v31 : Vec F S1x256 .f32) (v37 : Vec F S256x8 .f32) (v39 : Vec F S1x8 .f32) :
    k0_pay7 (k0_pay4 v0 v28) (k0_pay5 v31) v37 v39 = k0_pay3 v0 v28 v31 v37 v39 := rfl
theorem piece2_logits (v0 : Vec F S768x256 .f32) (v54 : Vec F S1024x768 .f32) (v57 : Vec F S1x256 .f32) (v63 : Vec F S256x8 .f32) (v65 : Vec F S1x8 .f32) :
    k0_pay10 (k0_pay8 (k0_pay1 v0) v54 v57 v63) (k0_pay9 v65) = k0_pay2 v0 v54 v57 v63 v65 := rfl
theorem piece2_weights (v0 : Vec F S768x256 .f32) (v54 : Vec F S1024x768 .f32) (v57 : Vec F S1x256 .f32) (v63 : Vec F S256x8 .f32) (v65 : Vec F S1x8 .f32) :
    k0_pay11 (k0_pay8 (k0_pay1 v0) v54 v57 v63) (k0_pay9 v65) = k0_pay3 v0 v54 v57 v63 v65 := rfl
theorem piece3_logits (v0 : Vec F S768x256 .f32) (v80 : Vec F S1024x768 .f32) (v83 : Vec F S1x256 .f32) (v89 : Vec F S256x8 .f32) (v91 : Vec F S1x8 .f32) :
    k0_pay12 (k0_pay1 v0) v80 v83 v89 v91 = k0_pay2 v0 v80 v83 v89 v91 := rfl
theorem piece3_weights (v0 : Vec F S768x256 .f32) (v80 : Vec F S1024x768 .f32) (v83 : Vec F S1x256 .f32) (v89 : Vec F S256x8 .f32) (v91 : Vec F S1x8 .f32) :
    k0_pay13 (k0_pay1 v0) v80 v83 v89 v91 = k0_pay3 v0 v80 v83 v89 v91 := rfl

end Regroup

theorem zero_offsets : (![0, 0] : Fin 2 → Nat) = fun _ => 0 := funext fun a => by fin_cases a <;> rfl

/-! ## One piece of x against the whole array -/

/-- A 1024-row piece that is rows R0 .. R0 + 1023 of x gives those rows of the whole-array logits, -/
theorem piece_logits (X : (⟨2, ![32768, 768]⟩ : Shape).Idx → EReal) (W1 : Vec Ideal S768x256 .f32) (b1 : (⟨1, ![256]⟩ : Shape).Idx → EReal)
    (W2 : Vec Ideal S256x8 .f32) (b2 : (⟨1, ![8]⟩ : Shape).Idx → EReal)
    (xb : Vec Ideal S1024x768 .f32) (b1r : Vec Ideal S1x256 .f32) (b2r : Vec Ideal S1x8 .f32)
    (R0 : Nat) (hR0 : R0 + 1024 ≤ 32768)
    (hx : ∀ (r : Fin 1024) (j : Fin 768), X (ix2 (⟨R0 + r.val, by omega⟩ : Fin 32768) j) = xb (ix2 r j))
    (h1 : ∀ k : Fin 256, b1 (ix1 k) = b1r (ix2 (0 : Fin 1) k)) (h2 : ∀ e : Fin 8, b2 (ix1 e) = b2r (ix2 (0 : Fin 1) e))
    (r : Fin 1024) (e : Fin 8) :
    k0_pay2 (F := Ideal) W1 xb b1r W2 b2r (ix2 r e) = routerLogits X W1 b1 W2 b2 (ix2 (⟨R0 + r.val, by omega⟩ : Fin 32768) e) := by
  rw [Cert.RouterBlock.payload_logits]
  exact (routerLogits_eq_blockLogits X xb W1 b1 b1r W2 b2 b2r ⟨R0 + r.val, by omega⟩ r (hx r) h1 h2 e).symm

/-- and of the whole-array softmax weights. -/
theorem piece_weights (X : (⟨2, ![32768, 768]⟩ : Shape).Idx → EReal) (W1 : Vec Ideal S768x256 .f32) (b1 : (⟨1, ![256]⟩ : Shape).Idx → EReal)
    (W2 : Vec Ideal S256x8 .f32) (b2 : (⟨1, ![8]⟩ : Shape).Idx → EReal)
    (xb : Vec Ideal S1024x768 .f32) (b1r : Vec Ideal S1x256 .f32) (b2r : Vec Ideal S1x8 .f32)
    (R0 : Nat) (hR0 : R0 + 1024 ≤ 32768)
    (hx : ∀ (r : Fin 1024) (j : Fin 768), X (ix2 (⟨R0 + r.val, by omega⟩ : Fin 32768) j) = xb (ix2 r j))
    (h1 : ∀ k : Fin 256, b1 (ix1 k) = b1r (ix2 (0 : Fin 1) k)) (h2 : ∀ e : Fin 8, b2 (ix1 e) = b2r (ix2 (0 : Fin 1) e))
    (r : Fin 1024) (e : Fin 8) :
    k0_pay3 (F := Ideal) W1 xb b1r W2 b2r (ix2 r e) = routerWeights X W1 b1 W2 b2 (ix2 (⟨R0 + r.val, by omega⟩ : Fin 32768) e) := by
  rw [Cert.RouterBlock.payload_weights]
  exact (routerWeights_eq_blockWeights X xb W1 b1 b1r W2 b2 b2r ⟨R0 + r.val, by omega⟩ r (hx r) h1 h2 e).symm

/-! ## One output block against the whole array -/

/-- The row of the whole array an index of a block that starts at row R0 names. -/
abbrev rowAt (R0 : Nat) (hR0 : R0 + 4096 ≤ 32768) (y : S4096x8.Idx) : (⟨2, ![32768, 8]⟩ : Shape).Idx :=
  ix2 (⟨R0 + (y 0).val, by have h : (y 0).val < 4096 := (y 0).isLt; omega⟩ : Fin 32768) (y 1)

/-- Where band k of a block sits in it: rows 1024·k .. -/
theorem band_row (R0 : Nat) (hR0 : R0 + 4096 ≤ 32768) (off : Nat) (hoff : off + 1024 ≤ 4096)
    (inb : ∀ a, (![off, 0] : Fin 2 → Nat) a + S1024x8.size a ≤ S4096x8.size a) (x : S1024x8.Idx) :
    rowAt R0 hR0 ((Rect.unit (s := S4096x8) ![off, 0] S1024x8.size inb).emb x)
      = ix2 (⟨R0 + off + (x 0).val, by have h : (x 0).val < 1024 := (x 0).isLt; omega⟩ : Fin 32768) (x 1) := by
  funext a; apply Fin.ext
  match a with
  | ⟨0, _⟩ => show R0 + (off + 1 * (x 0).val) = R0 + off + (x 0).val; omega
  | ⟨1, _⟩ => show 0 + 1 * (x 1).val = (x 1).val; omega

/-- A softmax block built of four consecutive pieces of x that start at row R0 is rows R0 .. R0 + 4095 of the
    whole-array softmax weights. -/
theorem weightsBlock_apply (X : (⟨2, ![32768, 768]⟩ : Shape).Idx → EReal) (W1 : Vec Ideal S768x256 .f32) (b1 : (⟨1, ![256]⟩ : Shape).Idx → EReal)
    (W2 : Vec Ideal S256x8 .f32) (b2 : (⟨1, ![8]⟩ : Shape).Idx → EReal)
    (x0 x1 x2 x3 : Vec Ideal S1024x768 .f32) (w1 : Vec Ideal S768x256 .f32) (b1r : Vec Ideal S1x256 .f32) (w2 : Vec Ideal S256x8 .f32) (b2r : Vec Ideal S1x8 .f32)
    (R0 : Nat) (hR0 : R0 + 4096 ≤ 32768)
    (hx0 : ∀ (r : Fin 1024) (j : Fin 768), X (ix2 (⟨R0 + 0 + r.val, by omega⟩ : Fin 32768) j) = x0 (ix2 r j))
    (hx1 : ∀ (r : Fin 1024) (j : Fin 768), X (ix2 (⟨R0 + 1024 + r.val, by omega⟩ : Fin 32768) j) = x1 (ix2 r j))
    (hx2 : ∀ (r : Fin 1024) (j : Fin 768), X (ix2 (⟨R0 + 2048 + r.val, by omega⟩ : Fin 32768) j) = x2 (ix2 r j))
    (hx3 : ∀ (r : Fin 1024) (j : Fin 768), X (ix2 (⟨R0 + 3072 + r.val, by omega⟩ : Fin 32768) j) = x3 (ix2 r j))
    (hw1 : w1 = W1) (hw2 : w2 = W2)
    (h1 : ∀ k : Fin 256, b1 (ix1 k) = b1r (ix2 (0 : Fin 1) k)) (h2 : ∀ e : Fin 8, b2 (ix1 e) = b2r (ix2 (0 : Fin 1) e))
    (y : S4096x8.Idx) :
    weightsBlock x0 x1 x2 x3 w1 b1r w2 b2r y = routerWeights X W1 b1 W2 b2 (rowAt R0 hR0 y) := by
  subst hw1 hw2
  unfold weightsBlock
  simp only [View.ld_unit_zero (S := S1024x768) zero_offsets, View.ld_unit_zero (S := S768x256) zero_offsets,
    View.ld_unit_zero (S := S1x256) zero_offsets, View.ld_unit_zero (S := S256x8) zero_offsets, View.ld_unit_zero (S := S1x8) zero_offsets,
    piece1_weights, piece2_weights, piece3_weights]
  refine View.canon_apply_of_pieces (Val := Elt Ideal) (fun y => routerWeights X w1 b1 w2 b2 (rowAt R0 hR0 y)) _ ?_ y (bands_cover _ _ _ _ y)
  intro p hp x
  simp only [List.mem_cons, List.not_mem_nil, or_false] at hp
  rcases hp with rfl | rfl | rfl | rfl
  · show k0_pay3 (F := Ideal) w1 x3 b1r w2 b2r x = _
    rw [band_row R0 hR0 3072 (by omega), eq_ix2 x]
    exact piece_weights X w1 b1 w2 b2 x3 b1r b2r (R0 + 3072) (by omega) hx3 h1 h2 (x 0) (x 1)
  · show k0_pay3 (F := Ideal) w1 x2 b1r w2 b2r x = _
    rw [band_row R0 hR0 2048 (by omega), eq_ix2 x]
    exact piece_weights X w1 b1 w2 b2 x2 b1r b2r (R0 + 2048) (by omega) hx2 h1 h2 (x 0) (x 1)
  · show k0_pay3 (F := Ideal) w1 x1 b1r w2 b2r x = _
    rw [band_row R0 hR0 1024 (by omega), eq_ix2 x]
    exact piece_weights X w1 b1 w2 b2 x1 b1r b2r (R0 + 1024) (by omega) hx1 h1 h2 (x 0) (x 1)
  · show k0_pay3 (F := Ideal) w1 x0 b1r w2 b2r x = _
    rw [band_row R0 hR0 0 (by omega), eq_ix2 x]
    exact piece_weights X w1 b1 w2 b2 x0 b1r b2r (R0 + 0) (by omega) hx0 h1 h2 (x 0) (x 1)

/-- A logits block built of four consecutive pieces of x that start at row R0 is rows R0 .. R0 + 4095 of the
    whole-array logits. -/
theorem logitsBlock_apply (X : (⟨2, ![32768, 768]⟩ : Shape).Idx → EReal) (W1 : Vec Ideal S768x256 .f32) (b1 : (⟨1, ![256]⟩ : Shape).Idx → EReal)
    (W2 : Vec Ideal S256x8 .f32) (b2 : (⟨1, ![8]⟩ : Shape).Idx → EReal)
    (x0 x1 x2 x3 : Vec Ideal S1024x768 .f32) (w1 : Vec Ideal S768x256 .f32) (b1r : Vec Ideal S1x256 .f32) (w2 : Vec Ideal S256x8 .f32) (b2r : Vec Ideal S1x8 .f32)
    (R0 : Nat) (hR0 : R0 + 4096 ≤ 32768)
    (hx0 : ∀ (r : Fin 1024) (j : Fin 768), X (ix2 (⟨R0 + 0 + r.val, by omega⟩ : Fin 32768) j) = x0 (ix2 r j))
    (hx1 : ∀ (r : Fin 1024) (j : Fin 768), X (ix2 (⟨R0 + 1024 + r.val, by omega⟩ : Fin 32768) j) = x1 (ix2 r j))
    (hx2 : ∀ (r : Fin 1024) (j : Fin 768), X (ix2 (⟨R0 + 2048 + r.val, by omega⟩ : Fin 32768) j) = x2 (ix2 r j))
    (hx3 : ∀ (r : Fin 1024) (j : Fin 768), X (ix2 (⟨R0 + 3072 + r.val, by omega⟩ : Fin 32768) j) = x3 (ix2 r j))
    (hw1 : w1 = W1) (hw2 : w2 = W2)
    (h1 : ∀ k : Fin 256, b1 (ix1 k) = b1r (ix2 (0 : Fin 1) k)) (h2 : ∀ e : Fin 8, b2 (ix1 e) = b2r (ix2 (0 : Fin 1) e))
    (y : S4096x8.Idx) :
    logitsBlock x0 x1 x2 x3 w1 b1r w2 b2r y = routerLogits X W1 b1 W2 b2 (rowAt R0 hR0 y) := by
  subst hw1 hw2
  unfold logitsBlock
  simp only [View.ld_unit_zero (S := S1024x768) zero_offsets, View.ld_unit_zero (S := S768x256) zero_offsets,
    View.ld_unit_zero (S := S1x256) zero_offsets, View.ld_unit_zero (S := S256x8) zero_offsets, View.ld_unit_zero (S := S1x8) zero_offsets,
    piece1_logits, piece2_logits, piece3_logits]
  refine View.canon_apply_of_pieces (Val := Elt Ideal) (fun y => routerLogits X w1 b1 w2 b2 (rowAt R0 hR0 y)) _ ?_ y (bands_cover _ _ _ _ y)
  intro p hp x
  simp only [List.mem_cons, List.not_mem_nil, or_false] at hp
  rcases hp with rfl | rfl | rfl | rfl
  · show k0_pay2 (F := Ideal) w1 x3 b1r w2 b2r x = _
    rw [band_row R0 hR0 3072 (by omega), eq_ix2 x]
    exact piece_logits X w1 b1 w2 b2 x3 b1r b2r (R0 + 3072) (by omega) hx3 h1 h2 (x 0) (x 1)
  · show k0_pay2 (F := Ideal) w1 x2 b1r w2 b2r x = _
    rw [band_row R0 hR0 2048 (by omega), eq_ix2 x]
    exact piece_logits X w1 b1 w2 b2 x2 b1r b2r (R0 + 2048) (by omega) hx2 h1 h2 (x 0) (x 1)
  · show k0_pay2 (F := Ideal) w1 x1 b1r w2 b2r x = _
    rw [band_row R0 hR0 1024 (by omega), eq_ix2 x]
    exact piece_logits X w1 b1 w2 b2 x1 b1r b2r (R0 + 1024) (by omega) hx1 h1 h2 (x 0) (x 1)
  · show k0_pay2 (F := Ideal) w1 x0 b1r w2 b2r x = _
    rw [band_row R0 hR0 0 (by omega), eq_ix2 x]
    exact piece_logits X w1 b1 w2 b2 x0 b1r b2r (R0 + 0) (by omega) hx0 h1 h2 (x 0) (x 1)

/-! ## The grid: which rows each window holds at each point -/

variable (m : (ℓ : Loc nD τ sig) → Buf (Elt Ideal) ℓ) (ρ : Dev nD → PrngReg)

/-- The block indices of the ten windows, decided over the eight points: window j of x at block 4·t + j, the
    parameters at block 0, both results at block t. -/
theorem grid_facts : ∀ t : Fin cfg0.N,
    win0_0.index t (0 : Fin 2) = 4 * t.val + 0 ∧ win0_0.index t (1 : Fin 2) = 0
    ∧ win0_1.index t (0 : Fin 2) = 4 * t.val + 1 ∧ win0_1.index t (1 : Fin 2) = 0
    ∧ win0_2.index t (0 : Fin 2) = 4 * t.val + 2 ∧ win0_2.index t (1 : Fin 2) = 0
    ∧ win0_3.index t (0 : Fin 2) = 4 * t.val + 3 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## What each point writes back, and the arrays at the end -/

/-- What point t writes back through window 8 is block t of the whole-array weights of the arguments. -/
theorem flushed_weights (c : Dev nD) (t : Fin cfg0.N) :
    (dats m 0 c).flushed 8 t = ((cfg0.win 8).blk t).view.read (Elt Ideal)
      (routerWeights (V m c main_arg0) (V m c main_arg1) (m ((c : Thread nD τ).loc main_arg2)) (V m c main_arg3) (m ((c : Thread nD τ).loc main_arg4))) := by
  show (cfg0.win 8).cut (grid0.coords t) ((dats m 0 c).after 8 t) = _
  rw [after_weights]
  obtain ⟨e00, e01, e10, e11, e20, e21, e30, e31, e40, e41, e50, e51, e60, e61, e70, e71, e80, e81, e90, e91⟩ := grid_facts t
  have hN : t.val < 8 := by have h := t.isLt; have e : cfg0.N = 8 := N_0; omega
  have hx0 : ∀ (r : Fin 1024) (j : Fin 768), (V m c main_arg0 : (⟨2, ![32768, 768]⟩ : Shape).Idx → EReal) (ix2 (⟨t.val * 4096 + 0 + r.val, by omega⟩ : Fin 32768) j) = iblk m c 0 t (ix2 r j) := fun r j => by
    show V m c main_arg0 _ = V m c main_arg0 (((cfg0.win 0).blk t).view.emb (ix2 r j))
    refine congrArg _ ?_
    funext a; apply Fin.ext
    match a with
    | ⟨0, _⟩ => show t.val * 4096 + 0 + r.val = win0_0.index t (0 : Fin 2) * 1024 + 1 * r.val; omega
    | ⟨1, _⟩ => show j.val = win0_0.index t (1 : Fin 2) * 768 + 1 * j.val; omega
  have hx1 : ∀ (r : Fin 1024) (j : Fin 768), (V m c main_arg0 : (⟨2, ![32768, 768]⟩ : Shape).Idx → EReal) (ix2 (⟨t.val * 4096 + 1024 + r.val, by omega⟩ : Fin 32768) j) = iblk m c 1 t (ix2 r j) := fun r j => by
    show V m c main_arg0 _ = V m c main_arg0 (((cfg0.win 1).blk t).view.emb (ix2 r j))
    refine congrArg _ ?_
    funext a; apply Fin.ext
    match a with
    | ⟨0, _⟩ => show t.val * 4096 + 1024 + r.val = win0_1.index t (0 : Fin 2) * 1024 + 1 * r.val; omega
    | ⟨1, _⟩ => show j.val = win0_1.index t (1 : Fin 2) * 768 + 1 * j.val; omega
  have hx2 : ∀ (r : Fin 1024) (j : Fin 768), (V m c main_arg0 : (⟨2, ![32768, 768]⟩ : Shape).Idx → EReal) (ix2 (⟨t.val * 4096 + 2048 + r.val, by omega⟩ : Fin 32768) j) = iblk m c 2 t (ix2 r j) := fun r j => by
    show V m c main_arg0 _ = V m c main_arg0 (((cfg0.win 2).blk t).view.emb (ix2 r j))
    refine congrArg _ ?_
    funext a; apply Fin.ext
    match a with
    | ⟨0, _⟩ => show t.val * 4096 + 2048 + r.val = win0_2.index t (0 : Fin 2) * 1024 + 1 * r.val; omega
    | ⟨1, _⟩ => show j.val = win0_2.index t (1 : Fin 2) * 768 + 1 * j.val; omega
  have hx3 : ∀ (r : Fin 1024) (j : Fin 768), (V m c main_arg0 : (⟨2, ![32768, 768]⟩ : Shape).Idx → EReal) (ix2 (⟨t.val * 4096 + 3072 + r.val, by omega⟩ : Fin 32768) j) = iblk m c 3 t (ix2 r j) := fun r j => by
    show V m c main_arg0 _ = V m c main_arg0 (((cfg0.win 3).blk t).view.emb (ix2 r j))
    refine congrArg _ ?_
    funext a; apply Fin.ext
    match a with
    | ⟨0, _⟩ => show t.val * 4096 + 3072 + r.val = win0_3.index t (0 : Fin 2) * 1024 + 1 * r.val; omega
    | ⟨1, _⟩ => show j.val = win0_3.index t (1 : Fin 2) * 768 + 1 * j.val; omega
  have hw4 : (iblk m c 4 t : Vec Ideal S768x256 .f32) = V m c main_arg1 := by
    funext y
    show V m c main_arg1 (((cfg0.win 4).blk t).view.emb y) = V m c main_arg1 y
    refine congrArg _ ?_
    funext a; apply Fin.ext
    match a with
    | ⟨0, _⟩ => show win0_4.index t (0 : Fin 2) * 768 + 1 * (y 0).val = (y 0).val; omega
    | ⟨1, _⟩ => show win0_4.index t (1 : Fin 2) * 256 + 1 * (y 1).val = (y 1).val; omega
  have hw6 : (iblk m c 6 t : Vec Ideal S256x8 .f32) = V m c main_arg3 := by
    funext y
    show V m c main_arg3 (((cfg0.win 6).blk t).view.emb y) = V m c main_arg3 y
    refine congrArg _ ?_
    funext a; apply Fin.ext
    match a with
    | ⟨0, _⟩ => show win0_6.index t (0 : Fin 2) * 256 + 1 * (y 0).val = (y 0).val; omega
    | ⟨1, _⟩ => show win0_6.index t (1 : Fin 2) * 8 + 1 * (y 1).val = (y 1).val; omega
  have h1 : ∀ k : Fin 256, (m ((c : Thread nD τ).loc main_arg2) : (⟨1, ![256]⟩ : Shape).Idx → EReal) (ix1 k) = iblk m c 5 t (ix2 (0 : Fin 1) k) := fun k => by
    rw [← Cert.KernelIdeal.RouterBias.V_bias1_apply m c k]
    show V m c main_call0_v0 _ = V m c main_call0_v0 (((cfg0.win 5).blk t).view.emb (ix2 (0 : Fin 1) k))
    refine congrArg _ ?_
    funext a; apply Fin.ext
    match a with
    | ⟨0, _⟩ => show 0 = win0_5.index t (0 : Fin 2) * 1 + 1 * 0; omega
    | ⟨1, _⟩ => show k.val = win0_5.index t (1 : Fin 2) * 256 + 1 * k.val; omega
  have h2 : ∀ e : Fin 8, (m ((c : Thread nD τ).loc main_arg4) : (⟨1, ![8]⟩ : Shape).Idx → EReal) (ix1 e) = iblk m c 7 t (ix2 (0 : Fin 1) e) := fun e => by
    rw [← Cert.KernelIdeal.RouterBias.V_bias2_apply m c e]
    show V m c main_call0_v1 _ = V m c main_call0_v1 (((cfg0.win 7).blk t).view.emb (ix2 (0 : Fin 1) e))
    refine congrArg _ ?_
    funext a; apply Fin.ext
    match a with
    | ⟨0, _⟩ => show 0 = win0_7.index t (0 : Fin 2) * 1 + 1 * 0; omega
    | ⟨1, _⟩ => show e.val = win0_7.index t (1 : Fin 2) * 8 + 1 * e.val; omega
  funext j
  refine (weightsBlock_apply (V m c main_arg0) (V m c main_arg1) (m ((c : Thread nD τ).loc main_arg2)) (V m c main_arg3) (m ((c : Thread nD τ).loc main_arg4))
    (iblk m c 0 t) (iblk m c 1 t) (iblk m c 2 t) (iblk m c 3 t) (iblk m c 4 t) (iblk m c 5 t) (iblk m c 6 t) (iblk m c 7 t)
    (t.val * 4096) (by omega) hx0 hx1 hx2 hx3 hw4 hw6 h1 h2 j).trans ?_
  show routerWeights _ _ _ _ _ (rowAt (t.val * 4096) (by omega) j) = routerWeights _ _ _ _ _ (((cfg0.win 8).blk t).view.emb j)
  refine congrArg _ ?_
  funext a; apply Fin.ext
  match a with
  | ⟨0, _⟩ => show t.val * 4096 + (j 0).val = win0_8.index t (0 : Fin 2) * 4096 + 1 * (j 0).val; omega
  | ⟨1, _⟩ => show (j 1).val = win0_8.index t (1 : Fin 2) * 8 + 1 * (j 1).val; omega

/-- An index of the result is in point t's block iff its row is one of rows 4096·t .. 4096·t + 4095. -/
theorem mem_block_weights (t : Fin cfg0.N) (i : S32768x8.Idx) :
    i ∈ ((cfg0.win 8).blk t).view.set ↔ ∀ a : Fin 2, win0_8.index t a * S4096x8.size a ≤ (i a).val ∧ (i a).val < win0_8.index t a * S4096x8.size a + S4096x8.size a := by
  show i ∈ ((View.whole main_v0_0).slice (win0_8.rect t)).set ↔ _
  rw [View.set_slice_whole, Rect.mem_set_unit]
  exact Iff.rfl

/-- Every index of the result is in the block of the point its row names: the eight blocks tile the array. -/
theorem cover_weights (i : S32768x8.Idx) : ∃ t : Fin cfg0.N, (cfg0.win 8).flush t = true ∧ i ∈ ((cfg0.win 8).blk t).view.set := by
  have hi0 : (i 0).val < 32768 := (i 0).isLt
  have hi1 : (i 1).val < 8 := (i 1).isLt
  have hN : cfg0.N = 8 := N_0
  let t : Fin cfg0.N := ⟨(i 0).val / 4096, by omega⟩
  obtain ⟨e00, e01, e10, e11, e20, e21, e30, e31, e40, e41, e50, e51, e60, e61, e70, e71, e80, e81, e90, e91⟩ := grid_facts t
  have ht : t.val = (i 0).val / 4096 := rfl
  refine ⟨t, flush0_8 t, ?_⟩
  rw [mem_block_weights]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 8 ≤ (i 1).val ∧ (i 1).val < win0_8.index t (1 : Fin 2) * 8 + 8; omega

/-- The result array after the run: the whole-array weights of the arguments as launched. -/
theorem final_weights (c : Dev nD) : (dats m 0 c).arrAt 8 cfg0.N
    = routerWeights (m ((c : Thread nD τ).loc main_arg0)) (m ((c : Thread nD τ).loc main_arg1)) (m ((c : Thread nD τ).loc main_arg2)) (m ((c : Thread nD τ).loc main_arg3)) (m ((c : Thread nD τ).loc main_arg4)) := by
  rw [(dats m 0 c).arrAt_eq_of_cover 8 _ (fun t _ => flushed_weights m c t) cover_weights, V_main_arg0, V_main_arg1, V_main_arg3]

/-- What point t writes back through window 9 is block t of the whole-array logits of the arguments. -/
theorem flushed_logits (c : Dev nD) (t : Fin cfg0.N) :
    (dats m 0 c).flushed 9 t = ((cfg0.win 9).blk t).view.read (Elt Ideal)
      (routerLogits (V m c main_arg0) (V m c main_arg1) (m ((c : Thread nD τ).loc main_arg2)) (V m c main_arg3) (m ((c : Thread nD τ).loc main_arg4))) := by
  show (cfg0.win 9).cut (grid0.coords t) ((dats m 0 c).after 9 t) = _
  rw [after_logits]
  obtain ⟨e00, e01, e10, e11, e20, e21, e30, e31, e40, e41, e50, e51, e60, e61, e70, e71, e80, e81, e90, e91⟩ := grid_facts t
  have hN : t.val < 8 := by have h := t.isLt; have e : cfg0.N = 8 := N_0; omega
  have hx0 : ∀ (r : Fin 1024) (j : Fin 768), (V m c main_arg0 : (⟨2, ![32768, 768]⟩ : Shape).Idx → EReal) (ix2 (⟨t.val * 4096 + 0 + r.val, by omega⟩ : Fin 32768) j) = iblk m c 0 t (ix2 r j) := fun r j => by
    show V m c main_arg0 _ = V m c main_arg0 (((cfg0.win 0).blk t).view.emb (ix2 r j))
    refine congrArg _ ?_
    funext a; apply Fin.ext
    match a with
    | ⟨0, _⟩ => show t.val * 4096 + 0 + r.val = win0_0.index t (0 : Fin 2) * 1024 + 1 * r.val; omega
    | ⟨1, _⟩ => show j.val = win0_0.index t (1 : Fin 2) * 768 + 1 * j.val; omega
  have hx1 : ∀ (r : Fin 1024) (j : Fin 768), (V m c main_arg0 : (⟨2, ![32768, 768]⟩ : Shape).Idx → EReal) (ix2 (⟨t.val * 4096 + 1024 + r.val, by omega⟩ : Fin 32768) j) = iblk m c 1 t (ix2 r j) := fun r j => by
    show V m c main_arg0 _ = V m c main_arg0 (((cfg0.win 1).blk t).view.emb (ix2 r j))
    refine congrArg _ ?_
    funext a; apply Fin.ext
    match a with
    | ⟨0, _⟩ => show t.val * 4096 + 1024 + r.val = win0_1.index t (0 : Fin 2) * 1024 + 1 * r.val; omega
    | ⟨1, _⟩ => show j.val = win0_1.index t (1 : Fin 2) * 768 + 1 * j.val; omega
  have hx2 : ∀ (r : Fin 1024) (j : Fin 768), (V m c main_arg0 : (⟨2, ![32768, 768]⟩ : Shape).Idx → EReal) (ix2 (⟨t.val * 4096 + 2048 + r.val, by omega⟩ : Fin 32768) j) = iblk m c 2 t (ix2 r j) := fun r j => by
    show V m c main_arg0 _ = V m c main_arg0 (((cfg0.win 2).blk t).view.emb (ix2 r j))
    refine congrArg _ ?_
    funext a; apply Fin.ext
    match a with
    | ⟨0, _⟩ => show t.val * 4096 + 2048 + r.val = win0_2.index t (0 : Fin 2) * 1024 + 1 * r.val; omega
    | ⟨1, _⟩ => show j.val = win0_2.index t (1 : Fin 2) * 768 + 1 * j.val; omega
  have hx3 : ∀ (r : Fin 1024) (j : Fin 768), (V m c main_arg0 : (⟨2, ![32768, 768]⟩ : Shape).Idx → EReal) (ix2 (⟨t.val * 4096 + 3072 + r.val, by omega⟩ : Fin 32768) j) = iblk m c 3 t (ix2 r j) := fun r j => by
    show V m c main_arg0 _ = V m c main_arg0 (((cfg0.win 3).blk t).view.emb (ix2 r j))
    refine congrArg _ ?_
    funext a; apply Fin.ext
    match a with
    | ⟨0, _⟩ => show t.val * 4096 + 3072 + r.val = win0_3.index t (0 : Fin 2) * 1024 + 1 * r.val; omega
    | ⟨1, _⟩ => show j.val = win0_3.index t (1 : Fin 2) * 768 + 1 * j.val; omega
  have hw4 : (iblk m c 4 t : Vec Ideal S768x256 .f32) = V m c main_arg1 := by
    funext y
    show V m c main_arg1 (((cfg0.win 4).blk t).view.emb y) = V m c main_arg1 y
    refine congrArg _ ?_
    funext a; apply Fin.ext
    match a with
    | ⟨0, _⟩ => show win0_4.index t (0 : Fin 2) * 768 + 1 * (y 0).val = (y 0).val; omega
    | ⟨1, _⟩ => show win0_4.index t (1 : Fin 2) * 256 + 1 * (y 1).val = (y 1).val; omega
  have hw6 : (iblk m c 6 t : Vec Ideal S256x8 .f32) = V m c main_arg3 := by
    funext y
    show V m c main_arg3 (((cfg0.win 6).blk t).view.emb y) = V m c main_arg3 y
    refine congrArg _ ?_
    funext a; apply Fin.ext
    match a with
    | ⟨0, _⟩ => show win0_6.index t (0 : Fin 2) * 256 + 1 * (y 0).val = (y 0).val; omega
    | ⟨1, _⟩ => show win0_6.index t (1 : Fin 2) * 8 + 1 * (y 1).val = (y 1).val; omega
  have h1 : ∀ k : Fin 256, (m ((c : Thread nD τ).loc main_arg2) : (⟨1, ![256]⟩ : Shape).Idx → EReal) (ix1 k) = iblk m c 5 t (ix2 (0 : Fin 1) k) := fun k => by
    rw [← Cert.KernelIdeal.RouterBias.V_bias1_apply m c k]
    show V m c main_call0_v0 _ = V m c main_call0_v0 (((cfg0.win 5).blk t).view.emb (ix2 (0 : Fin 1) k))
    refine congrArg _ ?_
    funext a; apply Fin.ext
    match a with
    | ⟨0, _⟩ => show 0 = win0_5.index t (0 : Fin 2) * 1 + 1 * 0; omega
    | ⟨1, _⟩ => show k.val = win0_5.index t (1 : Fin 2) * 256 + 1 * k.val; omega
  have h2 : ∀ e : Fin 8, (m ((c : Thread nD τ).loc main_arg4) : (⟨1, ![8]⟩ : Shape).Idx → EReal) (ix1 e) = iblk m c 7 t (ix2 (0 : Fin 1) e) := fun e => by
    rw [← Cert.KernelIdeal.RouterBias.V_bias2_apply m c e]
    show V m c main_call0_v1 _ = V m c main_call0_v1 (((cfg0.win 7).blk t).view.emb (ix2 (0 : Fin 1) e))
    refine congrArg _ ?_
    funext a; apply Fin.ext
    match a with
    | ⟨0, _⟩ => show 0 = win0_7.index t (0 : Fin 2) * 1 + 1 * 0; omega
    | ⟨1, _⟩ => show e.val = win0_7.index t (1 : Fin 2) * 8 + 1 * e.val; omega
  funext j
  refine (logitsBlock_apply (V m c main_arg0) (V m c main_arg1) (m ((c : Thread nD τ).loc main_arg2)) (V m c main_arg3) (m ((c : Thread nD τ).loc main_arg4))
    (iblk m c 0 t) (iblk m c 1 t) (iblk m c 2 t) (iblk m c 3 t) (iblk m c 4 t) (iblk m c 5 t) (iblk m c 6 t) (iblk m c 7 t)
    (t.val * 4096) (by omega) hx0 hx1 hx2 hx3 hw4 hw6 h1 h2 j).trans ?_
  show routerLogits _ _ _ _ _ (rowAt (t.val * 4096) (by omega) j) = routerLogits _ _ _ _ _ (((cfg0.win 9).blk t).view.emb j)
  refine congrArg _ ?_
  funext a; apply Fin.ext
  match a with
  | ⟨0, _⟩ => show t.val * 4096 + (j 0).val = win0_9.index t (0 : Fin 2) * 4096 + 1 * (j 0).val; omega
  | ⟨1, _⟩ => show (j 1).val = win0_9.index t (1 : Fin 2) * 8 + 1 * (j 1).val; omega

/-- An index of the result is in point t's block iff its row is one of rows 4096·t .. 4096·t + 4095. -/
theorem mem_block_logits (t : Fin cfg0.N) (i : S32768x8.Idx) :
    i ∈ ((cfg0.win 9).blk t).view.set ↔ ∀ a : Fin 2, win0_9.index t a * S4096x8.size a ≤ (i a).val ∧ (i a).val < win0_9.index t a * S4096x8.size a + S4096x8.size a := by
  show i ∈ ((View.whole main_v0_1).slice (win0_9.rect t)).set ↔ _
  rw [View.set_slice_whole, Rect.mem_set_unit]
  exact Iff.rfl

/-- Every index of the result is in the block of the point its row names: the eight blocks tile the array. -/
theorem cover_logits (i : S32768x8.Idx) : ∃ t : Fin cfg0.N, (cfg0.win 9).flush t = true ∧ i ∈ ((cfg0.win 9).blk t).view.set := by
  have hi0 : (i 0).val < 32768 := (i 0).isLt
  have hi1 : (i 1).val < 8 := (i 1).isLt
  have hN : cfg0.N = 8 := N_0
  let t : Fin cfg0.N := ⟨(i 0).val / 4096, by omega⟩
  obtain ⟨e00, e01, e10, e11, e20, e21, e30, e31, e40, e41, e50, e51, e60, e61, e70, e71, e80, e81, e90, e91⟩ := grid_facts t
  have ht : t.val = (i 0).val / 4096 := rfl
  refine ⟨t, flush0_9 t, ?_⟩
  rw [mem_block_logits]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 8 ≤ (i 1).val ∧ (i 1).val < win0_9.index t (1 : Fin 2) * 8 + 8; omega

/-- The result array after the run: the whole-array logits of the arguments as launched. -/
theorem final_logits (c : Dev nD) : (dats m 0 c).arrAt 9 cfg0.N
    = routerLogits (m ((c : Thread nD τ).loc main_arg0)) (m ((c : Thread nD τ).loc main_arg1)) (m ((c : Thread nD τ).loc main_arg2)) (m ((c : Thread nD τ).loc main_arg3)) (m ((c : Thread nD τ).loc main_arg4)) := by
  rw [(dats m 0 c).arrAt_eq_of_cover 9 _ (fun t _ => flushed_logits m c t) cover_logits, V_main_arg0, V_main_arg1, V_main_arg3]

/-! ## The run, read -/

/-- Every run of the idealized kernel ends with the softmax weights and the logits of its arguments in its two results,
    and the arguments as launched. -/
theorem value_run : θ_run defs (onTc (τ := τ) (main (F := Ideal))) ⟨m, fun _ => 0, ρ⟩ fun r => ∀ c : Dev nD,
      r.2.mem ((c.tc : Thread nD τ).loc main_v0_0) = routerWeights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_1) = routerLogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 8).trans (final_weights m c),
     ((h c).1 9).trans (final_logits m c),
     ((h c).1 0).trans (((dats m 0 c).arrAt_in 0 rfl _).trans ((A_eq m c 0).trans (V_main_arg0 m c))),
     ((h c).1 4).trans (((dats m 0 c).arrAt_in 4 rfl _).trans ((A_eq m c 4).trans (V_main_arg1 m c))),
     ((h c).2 main_arg2 (Pipeline.mem_restRefs_of main_arg2 rfl (by decide))).trans (V_main_arg2 m c),
     ((h c).1 6).trans (((dats m 0 c).arrAt_in 6 rfl _).trans ((A_eq m c 6).trans (V_main_arg3 m c))),
     ((h c).2 main_arg4 (Pipeline.mem_restRefs_of main_arg4 rfl (by decide))).trans (V_main_arg4 m c)⟩) (run_main m ρ)

end Cert.KernelIdeal.Router

end
-- ==== Proof.RouterRef.lean ====
/-
  The reference computes the router row by row.

  The reference is a straight line of whole-array operations: two matrix products with a bias row added and a
  rectification between them give the logits; a maximum over the eight logits of each token (taken from −∞, and once more
  joined with −∞, which changes nothing), a subtraction, an exponential, a sum over the eight and a quotient give the
  routing weights. Read at one element (r, e), every operation reads its operands at that element or along row `r`, so
  the two results are the row functions of `RouterSpec` applied to row `r` of the input.
-/
import proofs.«126716_g61555471286782_cont_sun_m_1258_8_alg».proof.Proof.Gen.ReferenceIdeal.Read
import proofs.«126716_g61555471286782_cont_sun_m_1258_8_alg».proof.Proof.RouterSpec
import Idealize.ShloMosaic.PureOps.Reduce

noncomputable section

namespace Cert.RouterRef

open Cert.ReferenceIdeal Cert.ReferenceIdeal.Gen Cert.ReferenceIdeal.Read Cert.RouterSpec
open Idealize.ShloMosaic Idealize.ShloMosaic.ValueIdx

open scoped BigOperators

variable (a0 : (⟨S32768x768, .f32⟩ : BufTy).Contents (Elt Ideal)) (a1 : (⟨S768x256, .f32⟩ : BufTy).Contents (Elt Ideal))
  (a2 : (⟨S256, .f32⟩ : BufTy).Contents (Elt Ideal)) (a3 : (⟨S256x8, .f32⟩ : BufTy).Contents (Elt Ideal))
  (a4 : (⟨S8, .f32⟩ : BufTy).Contents (Elt Ideal))

/-! ## Where each operation reads its operands, by coordinates -/

theorem lidx_v0 (r : Fin 32768) (k : Fin 256) (j : Fin 768) : lidx_main_v0 (ix2 r k) j = ix2 r j :=
  funext fun a => Fin.ext (by match a with | ⟨0, _⟩ => rfl | ⟨1, _⟩ => rfl)
theorem ridx_v0 (r : Fin 32768) (k : Fin 256) (j : Fin 768) : ridx_main_v0 (ix2 r k) j = ix2 j k :=
  funext fun a => Fin.ext (by match a with | ⟨0, _⟩ => rfl | ⟨1, _⟩ => rfl)
theorem idx_v2 (r : Fin 32768) (k : Fin 256) : idx_main_v2 (ix2 r k) = ix2 (0 : Fin 1) k :=
  funext fun a => Fin.ext (by match a with | ⟨0, _⟩ => rfl | ⟨1, _⟩ => rfl)
theorem idx_v1 (u : Fin 1) (k : Fin 256) : idx_main_v1 (ix2 u k) = ix1 k :=
  funext fun a => Fin.ext (by match a with | ⟨0, _⟩ => rfl)
theorem lidx_v6 (r : Fin 32768) (e : Fin 8) (k : Fin 256) : lidx_main_v6 (ix2 r e) k = ix2 r k :=
  funext fun a => Fin.ext (by match a with | ⟨0, _⟩ => rfl | ⟨1, _⟩ => rfl)
theorem ridx_v6 (r : Fin 32768) (e : Fin 8) (k : Fin 256) : ridx_main_v6 (ix2 r e) k = ix2 k e :=
  funext fun a => Fin.ext (by match a with | ⟨0, _⟩ => rfl | ⟨1, _⟩ => rfl)
theorem idx_v8 (r : Fin 32768) (e : Fin 8) : idx_main_v8 (ix2 r e) = ix2 (0 : Fin 1) e :=
  funext fun a => Fin.ext (by match a with | ⟨0, _⟩ => rfl | ⟨1, _⟩ => rfl)
theorem idx_v7 (u : Fin 1) (e : Fin 8) : idx_main_v7 (ix2 u e) = ix1 e :=
  funext fun a => Fin.ext (by match a with | ⟨0, _⟩ => rfl)
theorem idx_v14 (r : Fin 32768) (e : Fin 8) : idx_main_v14 (ix2 r e) = ix2 r (0 : Fin 1) :=
  funext fun a => Fin.ext (by match a with | ⟨0, _⟩ => rfl | ⟨1, _⟩ => rfl)
theorem idx_v13 (r : Fin 32768) (u : Fin 1) : idx_main_v13 (ix2 r u) = ix1 r :=
  funext fun a => Fin.ext (by match a with | ⟨0, _⟩ => rfl)
theorem idx_v19 (r : Fin 32768) (e : Fin 8) : idx_main_v19 (ix2 r e) = ix2 r (0 : Fin 1) :=
  funext fun a => Fin.ext (by match a with | ⟨0, _⟩ => rfl | ⟨1, _⟩ => rfl)
theorem idx_v18 (r : Fin 32768) (u : Fin 1) : idx_main_v18 (ix2 r u) = ix1 r :=
  funext fun a => Fin.ext (by match a with | ⟨0, _⟩ => rfl)
theorem idx_v17 (r : Fin 32768) (k : Fin 8) : idx_main_v17 (ix1 r) k = ix2 r k :=
  funext fun a => Fin.ext (by match a with | ⟨0, _⟩ => rfl | ⟨1, _⟩ => rfl)

/-! ## The logits -/

/-- The reference's logits at (r, e) are token `r`'s logit `e`. -/
theorem logits_apply (r : Fin 32768) (e : Fin 8) :
    val_main_v9 (F := Ideal) a0 a1 a2 a3 a4 (ix2 r e)
      = logitRow (fun j => a0 (ix2 r j)) a1 (fun k => a2 (ix1 k)) a3 (fun e => a4 (ix1 e)) e := by
  rw [val_main_v9_apply, val_main_v6_apply, val_main_v8_apply, val_main_v7_apply]
  simp only [val_main_v5_apply, val_main_v3_apply, val_main_v0_apply, val_main_v2_apply, val_main_v1_apply,
    val_main_v4_apply, val_main_cst_apply, lidx_v0, ridx_v0, idx_v2, idx_v1, lidx_v6, ridx_v6, idx_v8, idx_v7,
    Ideal.addf_def, Ideal.maximumf_def, Ideal.ofBits_def]
  rfl

/-- The reference's first result is the router's logits. -/
theorem reference_logits : val_main_v9 (F := Ideal) a0 a1 a2 a3 a4 = routerLogits a0 a1 a2 a3 a4 := by
  funext i
  obtain ⟨r, e, rfl⟩ : ∃ (r : Fin 32768) (e : Fin 8), i = ix2 r e := ⟨i 0, i 1, eq_ix2 i⟩
  exact logits_apply a0 a1 a2 a3 a4 r e

/-! ## The row maximum -/

/-- The eight logits of a token are what a reduction over axis 1 folds. -/
theorem reduces_rows : S32768x8.Reduces [1] S32768 := by decide

/-- The reduced index `r` with the coordinate `k` put back on axis 1 is (r, k). -/
theorem lift_rows (r : Fin 32768) (k : Fin (S32768x8.size 1)) :
    reduces_rows.lift (ix1 r) k = ix2 r (⟨k.val, k.isLt⟩ : Fin 8) :=
  funext fun a => Fin.ext (by match a with | ⟨0, _⟩ => rfl | ⟨1, _⟩ => rfl)

/-- A maximum over axis 1 taken from −∞, at token `r`, is the largest of the row's eight entries taken from −∞. -/
theorem rowmax_of (y : FVec Ideal S32768x8 .f32) (r : Fin 32768) :
    Host.reduce (FloatOps.maximumf (F := Ideal) (φ := .f32)) y (constant (F := Ideal) S_ .f32 0xFF800000#32)
        reducesTo_S32768x8_S32768_d1 h_S_ (ix1 r)
      = rowMax (fun e' => y (ix2 r e')) := by
  rw [Host.reduce_eq_fold_single (FloatOps.maximumf (F := Ideal) (φ := .f32)) y _ reducesTo_S32768x8_S32768_d1 reduces_rows h_S_]
  have hf : (y ∘ reduces_rows.lift (ix1 r)) = fun k : Fin 8 => y (ix2 r k) :=
    funext fun k => congrArg y (lift_rows r k)
  show (Finset.univ : Finset (Fin 8)).fold max (Ideal.ofBits .f32 0xFF800000#32) (y ∘ reduces_rows.lift (ix1 r)) = _
  rw [hf]
  rfl

/-- The maximum the reference subtracts, at token `r`: the largest of its eight logits, taken from −∞. The reference joins
    the reduction's result with −∞ once more, which changes nothing. -/
theorem rowmax_apply (r : Fin 32768) :
    val_main_v12 (F := Ideal) a0 a1 a2 a3 a4 (ix1 r)
      = rowMax (fun e' => val_main_v9 (F := Ideal) a0 a1 a2 a3 a4 (ix2 r e')) := by
  rw [val_main_v12_apply, val_main_v11_apply, val_main_cst_1_apply]
  show max (Ideal.ofBits .f32 0xFF800000#32)
      (Host.reduce (FloatOps.maximumf (F := Ideal) (φ := .f32)) (val_main_v9 (F := Ideal) a0 a1 a2 a3 a4 : FVec Ideal S32768x8 .f32)
        (constant (F := Ideal) S_ .f32 0xFF800000#32) reducesTo_S32768x8_S32768_d1 h_S_ (ix1 r)) = _
  rw [rowmax_of]
  exact max_bot_rowMax _

/-! ## The routing weights -/

/-- The reference's weights at (r, e) are the softmax of token `r`'s logits at `e`. -/
theorem weights_apply (r : Fin 32768) (e : Fin 8) :
    val_main_v20 (F := Ideal) a0 a1 a2 a3 a4 (ix2 r e)
      = softmaxRow (fun e' => val_main_v9 (F := Ideal) a0 a1 a2 a3 a4 (ix2 r e')) e := by
  rw [val_main_v20_apply, val_main_v19_apply, val_main_v18_apply, val_main_v17_apply]
  simp only [val_main_v16_apply, val_main_v15_apply, val_main_v14_apply, val_main_v13_apply, val_main_cst_2_apply,
    idx_v14, idx_v13, idx_v19, idx_v18, idx_v17, rowmax_apply, Ideal.hostDivf_def, Ideal.hostUnary_exp_def,
    Ideal.subf_def, Ideal.ofBits_def, Ideal.ofBits_zero_f32, zero_add]
  rfl

/-- The reference's second result is the router's weights. -/
theorem reference_weights : val_main_v20 (F := Ideal) a0 a1 a2 a3 a4 = routerWeights a0 a1 a2 a3 a4 := by
  funext i
  obtain ⟨r, e, rfl⟩ : ∃ (r : Fin 32768) (e : Fin 8), i = ix2 r e := ⟨i 0, i 1, eq_ix2 i⟩
  rw [weights_apply]
  simp only [logits_apply]
  rfl

end Cert.RouterRef

end
-- ==== Proof.RouterRefRun.lean ====
/-
  The reference's run ends with the router's two results.

  Every execution of the reference terminates with its two result arrays holding the routing weights and the logits of
  the 32768 tokens, as functions of the five argument arrays as launched, and leaves the argument arrays unchanged.
-/
import proofs.«126716_g61555471286782_cont_sun_m_1258_8_alg».proof.Proof.Gen.ReferenceIdeal.Run
import proofs.«126716_g61555471286782_cont_sun_m_1258_8_alg».proof.Proof.Gen.ReferenceIdeal.Read
import proofs.«126716_g61555471286782_cont_sun_m_1258_8_alg».proof.Proof.RouterRef
import proofs.«126716_g61555471286782_cont_sun_m_1258_8_alg».proof.Proof.RouterSpec

noncomputable section

namespace Cert.RouterRef

open Cert.ReferenceIdeal Cert.ReferenceIdeal.Gen Cert.RouterSpec
open Idealize.ShloMosaic Idealize.ShloMosaic.TcCoe Idealize.SL.Sem Idealize.ShloMosaic.StableHlo

/-- From any memory with zero counters, every weakly fair execution of the reference terminates with the weights and the
    logits of the router in its two result arrays and its five arguments unchanged. -/
theorem reference_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v20) = routerWeights (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_v9) = routerLogits (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono (fun _ h c =>
      ⟨(h c).1.trans ((Read.val_main_v20_eq _ _ _ _ _).trans (reference_weights _ _ _ _ _)),
        (h c).2.1.trans ((Read.val_main_v9_eq _ _ _ _ _).trans (reference_logits _ _ _ _ _)),
        (h c).2.2⟩)
    (Value.run (F := Ideal) m' ρ')

end Cert.RouterRef

end
-- ==== Proof.lean ====
/-
  A mixture-of-experts router: for x : [32768, 768], W1 : [768, 256], b1 : [256], W2 : [256, 8], b2 : [8],

      logits = relu (x · W1 + b1) · W2 + b2        weights = softmax of each row of logits,

  the softmax written exp (l − max l) / Σ exp (l − max l), the row maximum taken from −∞.

  The kernel walks the rows in 8 grid points of 4096 rows; at each point it reads four consecutive 1024-row pieces of x
  through four windows on the one array x, and writes the 4096 rows of both results. Piece by piece it computes the same
  two expressions as the reference does on the whole array (the casts of x and W1 to a shorter float format are the
  identity on extended reals, a matrix product into a zero accumulator is the sum over the contracted axis, a lane
  reduction is the finite sum or maximum of its row, and the reference's extra maximum with −∞ changes nothing). So the
  two programs end with equal results as extended reals, element by element; no finiteness of the inputs is used.

  The frames. The region only reads x, W1, W2 and the two bias rows (reshapes of b1 and b2 made before it), so each
  argument ends as launched; x is held at four quarter shares, one per window on it (RouterRun…). The reference is a
  straight line of host operations. The idealization rewrote nothing, so there is nothing to preserve.

  Modules: RouterBody… (one grid point), RouterRun… (proof data, launch, frame; once per float instance),
  RouterArraysIdeal (the result arrays as functions of the arguments), RouterSpec (the two functions), RouterBlock (a
  piece's payload is the block function), RouterBiasRows (the reshaped biases), RouterRef and RouterRefRun (the
  reference computes the two functions).
-/
import proofs.«126716_g61555471286782_cont_sun_m_1258_8_alg».proof.Defs
import proofs.«126716_g61555471286782_cont_sun_m_1258_8_alg».proof.Proof.Gen.Kernel
import proofs.«126716_g61555471286782_cont_sun_m_1258_8_alg».proof.Proof.Gen.KernelIdeal
import proofs.«126716_g61555471286782_cont_sun_m_1258_8_alg».proof.Proof.Gen.ReferenceIdeal
import proofs.«126716_g61555471286782_cont_sun_m_1258_8_alg».proof.Proof.Gen.Pre_finite_inputs
import proofs.«126716_g61555471286782_cont_sun_m_1258_8_alg».proof.Proof.RouterRunBits
import proofs.«126716_g61555471286782_cont_sun_m_1258_8_alg».proof.Proof.RouterArraysIdeal
import proofs.«126716_g61555471286782_cont_sun_m_1258_8_alg».proof.Proof.RouterRefRun
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Router.frame m ρ

/-- So does its idealization. -/
theorem frame_ideal : Cert.frame_KernelIdeal := fun m ρ _ => Cert.KernelIdeal.Router.frame m ρ

/-- So does the reference: its run, the results forgotten. -/
theorem frame_reference : Cert.frame_ReferenceIdeal := fun m ρ _ =>
  (θ_run Cert.ReferenceIdeal.defs _ _).mono (fun _ h c => (h c).2.2) (Cert.RouterRef.reference_run m ρ)

/-- The idealization rewrote no operation. -/
theorem preserves : Cert.preserves_Kernel_KernelIdeal := trivial

/-- From memories that agree on the arguments both programs end with the router's weights and logits of those
    arguments in their results. -/
theorem algebraic : Cert.algebraic_KernelIdeal_ReferenceIdeal := by
  intro m ρ m' ρ' _ hagree
  refine ⟨_, _, Cert.KernelIdeal.Router.value_run m ρ, ?_⟩
  refine (θ_run Cert.ReferenceIdeal.defs _ _).mono (fun _ h c => ⟨(h c).1.trans ?_, (h c).2.1.trans ?_, (h c).2.2⟩)
    (Cert.RouterRef.reference_run m' ρ')
  · rw [(hagree c).1, (hagree c).2.1, (hagree c).2.2.1, (hagree c).2.2.2.1, (hagree c).2.2.2.2]
  · rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
